-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S24x24 : S_.BroadcastsInDim S24x24 (![] : Fin 0 → Fin S24x24.rank)
  reducesTo_S24x24_S_d0_1 : S24x24.ReducesTo [0, 1] S_
  bcast_S_S24x12 : S_.BroadcastsInDim S24x12 (![] : Fin 0 → Fin S24x12.rank)
  reducesTo_S24x12_S_d0_1 : S24x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg8 : FVec F S24x12 .f32) (main_arg9 : FVec F S24x12 .f32) (main_arg10 : FVec F S12 .f32) (main_v33 : IVec S_ 1) : IVec S_ 1 :=
  let main_v34 : FVec F S24x12 .f32 := Host.absf main_arg8
  let main_cst_12 : FVec F S_ .f32 := constant S_ .f32 0x7F800000#32
  let main_v35 : FVec F S24x12 .f32 := broadcastInDim S24x12 ![] bcast_S_S24x12 main_cst_12
  let main_v36 : IVec S24x12 1 := cmpf .olt main_v34 main_v35
  let main_c_13 : IVec S_ 1 := constantI S_ 1 1#1
  let main_v37 : IVec S_ 1 := (fun x v => Host.reduce IntOp.andi x v reducesTo_S24x12_S_d0_1 h_S_) main_v36 main_c_13
  let main_v38 : IVec S_ 1 := andi main_v33 main_v37
  let main_v39 : FVec F S24x12 .f32 := Host.absf main_arg9
  let main_cst_14 : FVec F S_ .f32 := constant S_ .f32 0x7F800000#32
  let main_v40 : FVec F S24x12 .f32 := broadcastInDim S24x12 ![] bcast_S_S24x12 main_cst_14
  let main_v41 : IVec S24x12 1 := cmpf .olt main_v39 main_v40
  let main_c_15 : IVec S_ 1 := constantI S_ 1 1#1
  let main_v42 : IVec S_ 1 := (fun x v => Host.reduce IntOp.andi x v reducesTo_S24x12_S_d0_1 h_S_) main_v41 main_c_15
  let main_v43 : IVec S_ 1 := andi main_v38 main_v42
  let main_v44 : FVec F S12 .f32 := Host.absf main_arg10
  let main_cst_16 : FVec F S_ .f32 := constant S_ .f32 0x7F800000#32
  let main_v45 : FVec F S12 .f32 := broadcastInDim S12 ![] bcast_S_S12 main_cst_16
  let main_v46 : IVec S12 1 := cmpf .olt main_v44 main_v45
  let main_c_17 : IVec S_ 1 := constantI S_ 1 1#1
  let main_v47 : IVec S_ 1 := (fun x v => Host.reduce IntOp.andi x v reducesTo_S12_S_d0 h_S_) main_v46 main_c_17
  let main_v48 : IVec S_ 1 := andi main_v43 main_v47
  main_v48

def fn_part1 {F : FTy → Type} [FloatOps F] (main_arg5 : FVec F S24x24 .f32) (main_arg6 : FVec F S24x24 .f32) (main_arg7 : FVec F S24 .f32) (main_arg8 : FVec F S24x12 .f32) (main_arg9 : FVec F S24x12 .f32) (main_arg10 : FVec F S12 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S24x24 .f32 := Host.absf main_arg5
  let main_cst_6 : FVec F S_ .f32 := constant S_ .f32 0x7F800000#32
  let main_v20 : FVec F S24x24 .f32 := broadcastInDim S24x24 ![] bcast_S_S24x24 main_cst_6
  let main_v21 : IVec S24x24 1 := cmpf .olt main_v19 main_v20
  let main_c_7 : IVec S_ 1 := constantI S_ 1 1#1
  let main_v22 : IVec S_ 1 := (fun x v => Host.reduce IntOp.andi x v reducesTo_S24x24_S_d0_1 h_S_) main_v21 main_c_7
  let main_v23 : IVec S_ 1 := andi main_v18 main_v22
  let main_v24 : FVec F S24x24 .f32 := Host.absf main_arg6
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x3200000 32) (main_arg2 : FVec F S32x24 .f32) (main_arg3 : FVec F S32x24 .f32) (main_arg4 : FVec F S24 .f32) (main_arg5 : FVec F S24x24 .f32) (main_arg6 : FVec F S24x24 .f32) (main_arg7 : FVec F S24 .f32) (main_arg8 : FVec F S24x12 .f32) (main_arg9 : FVec F S24x12 .f32) (main_arg10 : FVec F S12 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x24 .f32 := Host.absf main_arg2
  let main_cst_0 : FVec F S_ .f32 := constant S_ .f32 0x7F800000#32
  let main_v5 : FVec F S32x24 .f32 := broadcastInDim S32x24 ![] bcast_S_S32x24 main_cst_0
  let main_v6 : IVec S32x24 1 := cmpf .olt main_v4 main_v5
  let main_c_1 : IVec S_ 1 := constantI S_ 1 1#1
  let main_v7 : IVec S_ 1 := (fun x v => Host.reduce IntOp.andi x v reducesTo_S32x24_S_d0_1 h_S_) main_v6 main_c_1
  let main_v8 : IVec S_ 1 := andi main_v3 main_v7
  let main_v9 : FVec F S32x24 .f32 := Host.absf main_arg3
  let main_cst_2 : FVec F S_ .f32 := constant S_ .f32 0x7F800000#32
  let main_v10 : FVec F S32x24 .f32 := broadcastInDim S32x24 ![] bcast_S_S32x24 main_cst_2
  let main_v11 : IVec S32x24 1 := cmpf .olt main_v9 main_v10
  let main_c_3 : IVec S_ 1 := constantI S_ 1 1#1
  let main_v12 : IVec S_ 1 := (fun x v => Host.reduce IntOp.andi x v reducesTo_S32x24_S_d0_1 h_S_) main_v11 main_c_3
  let main_v13 : IVec S_ 1 := andi main_v8 main_v12
  let main_v14 : FVec F S24 .f32 := Host.absf main_arg4
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x32 : Shape := ⟨2, ![3200000, 32]⟩
abbrev S1x24 : Shape := ⟨2, ![1, 24]⟩
abbrev S100000x24 : Shape := ⟨2, ![100000, 24]⟩
abbrev S5000x32 : Shape := ⟨2, ![5000, 32]⟩
abbrev S5000x1 : Shape := ⟨2, ![5000, 1]⟩
abbrev S5000x24 : Shape := ⟨2, ![5000, 24]⟩
abbrev S3200000x24 : Shape := ⟨2, ![3200000, 24]⟩
abbrev S1x12 : Shape := ⟨2, ![1, 12]⟩
abbrev S100000x12 : Shape := ⟨2, ![100000, 12]⟩
abbrev S5000x12 : Shape := ⟨2, ![5000, 12]⟩

abbrev nBuf : Space → Nat
  | .hbm => 72
  | .vmem => 33
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x24, .f32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24x24, .f32⟩
  | .hbm, ⟨7, _⟩ => ⟨S24, .f32⟩
  | .hbm, ⟨8, _⟩ => ⟨S24x12, .f32⟩
  | .hbm, ⟨9, _⟩ => ⟨S24x12, .f32⟩
  | .hbm, ⟨10, _⟩ => ⟨S12, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000x1, .f32⟩
  | .hbm, ⟨17, _⟩ => ⟨S_, .f32⟩
  | .hbm, ⟨18, _⟩ => ⟨S100000x1, .f32⟩
  | .hbm, ⟨19, _⟩ => ⟨S3200000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x32, .f32⟩
  | .hbm, ⟨36, _⟩ => ⟨S_, .f32⟩
  | .hbm, ⟨37, _⟩ => ⟨S100000x32, .f32⟩
  | .hbm, ⟨38, _⟩ => ⟨S3200000x1, .i32⟩
  | .hbm, ⟨39, _⟩ => ⟨S100000x32, .f32⟩
  | .hbm, ⟨40, _⟩ => ⟨S1x24, .f32⟩
  | .hbm, ⟨41, _⟩ => ⟨S100000x24, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x24, .f32⟩
  | .hbm, ⟨51, _⟩ => ⟨S_, .f32⟩
  | .hbm, ⟨52, _⟩ => ⟨S100000x24, .f32⟩
  | .hbm, ⟨53, _⟩ => ⟨S3200000x1, .i32⟩
  | .hbm, ⟨54, _⟩ => ⟨S100000x24, .f32⟩
  | .hbm, ⟨55, _⟩ => ⟨S1x24, .f32⟩
  | .hbm, ⟨56, _⟩ => ⟨S100000x24, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x24, .f32⟩
  | .hbm, ⟨66, _⟩ => ⟨S_, .f32⟩
  | .hbm, ⟨67, _⟩ => ⟨S100000x24, .f32⟩
  | .hbm, ⟨68, _⟩ => ⟨S3200000x1, .i32⟩
  | .hbm, ⟨69, _⟩ => ⟨S100000x24, .f32⟩
  | .hbm, ⟨70, _⟩ => ⟨S1x12, .f32⟩
  | .hbm, ⟨71, _⟩ => ⟨S100000x12, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x1, .f32⟩
  | .local _ .vmem, ⟨5, _⟩ => ⟨S5000x1, .f32⟩
  | .local _ .vmem, ⟨6, _⟩ => ⟨S32x24, .f32⟩
  | .local _ .vmem, ⟨7, _⟩ => ⟨S32x24, .f32⟩
  | .local _ .vmem, ⟨8, _⟩ => ⟨S1x24, .f32⟩
  | .local _ .vmem, ⟨9, _⟩ => ⟨S5000x24, .f32⟩
  | .local _ .vmem, ⟨10, _⟩ => ⟨S5000x24, .f32⟩
  | .local _ .vmem, ⟨11, _⟩ => ⟨S5000x24, .f32⟩
  | .local _ .vmem, ⟨12, _⟩ => ⟨S5000x24, .f32⟩
  | .local _ .vmem, ⟨13, _⟩ => ⟨S5000x24, .f32⟩
  | .local _ .vmem, ⟨14, _⟩ => ⟨S5000x24, .f32⟩
  | .local _ .vmem, ⟨15, _⟩ => ⟨S5000x1, .f32⟩
  | .local _ .vmem, ⟨16, _⟩ => ⟨S5000x1, .f32⟩
  | .local _ .vmem, ⟨17, _⟩ => ⟨S24x24, .f32⟩
  | .local _ .vmem, ⟨18, _⟩ => ⟨S24x24, .f32⟩
  | .local _ .vmem, ⟨19, _⟩ => ⟨S1x24, .f32⟩
  | .local _ .vmem, ⟨20, _⟩ => ⟨S5000x24, .f32⟩
  | .local _ .vmem, ⟨21, _⟩ => ⟨S5000x24, .f32⟩
  | .local _ .vmem, ⟨22, _⟩ => ⟨S5000x24, .f32⟩
  | .local _ .vmem, ⟨23, _⟩ => ⟨S5000x24, .f32⟩
  | .local _ .vmem, ⟨24, _⟩ => ⟨S5000x24, .f32⟩
  | .local _ .vmem, ⟨25, _⟩ => ⟨S5000x24, .f32⟩
  | .local _ .vmem, ⟨26, _⟩ => ⟨S5000x1, .f32⟩
  | .local _ .vmem, ⟨27, _⟩ => ⟨S5000x1, .f32⟩
  | .local _ .vmem, ⟨28, _⟩ => ⟨S24x12, .f32⟩
  | .local _ .vmem, ⟨29, _⟩ => ⟨S24x12, .f32⟩
  | .local _ .vmem, ⟨30, _⟩ => ⟨S1x12, .f32⟩
  | .local _ .vmem, ⟨31, _⟩ => ⟨S5000x12, .f32⟩
  | .local _ .vmem, ⟨32, _⟩ => ⟨S5000x12, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S24x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x24 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S24x12 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S24x12 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x12 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x12 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000x32 : S_.BroadcastsInDim S100000x32 (![] : Fin 0 → Fin S100000x32.rank)
  shapeCasts_S24_S1x24 : S24.ShapeCasts S1x24
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x24_S32x24_0_0 : ∀ a, (![0, 0] : Fin 2 → Nat) a + S32x24.size a ≤ S32x24.size a
  h_S32x24 : 0 < S32x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S5000x24_S5000x24_0_0 : ∀ a, (![0, 0] : Fin 2 → Nat) a + S5000x24.size a ≤ S5000x24.size a
  h_S5000x24 : 0 < S5000x24.numel
  bcast_S_S100000x24 : S_.BroadcastsInDim S100000x24 (![] : Fin 0 → Fin S100000x24.rank)
  shapeCasts_S5000x24_S5000x24 : S5000x24.ShapeCasts S5000x24
  broadcasts_S5000x1_S5000x24 : S5000x1.Broadcasts S5000x24
  inb_S24x24_S24x24_0_0 : ∀ a, (![0, 0] : Fin 2 → Nat) a + S24x24.size a ≤ S24x24.size a
  h_S24x24 : 0 < S24x24.numel
  shapeCasts_S12_S1x12 : S12.ShapeCasts S1x12
  inb_S24x12_S24x12_0_0 : ∀ a, (![0, 0] : Fin 2 → Nat) a + S24x12.size a ≤ S24x12.size a
  h_S24x12 : 0 < S24x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S5000x12_S5000x12_0_0 : ∀ a, (![0, 0] : Fin 2 → Nat) a + S5000x12.size a ≤ S5000x12.size a
  h_S5000x12 : 0 < S5000x12.numel
  scatter_S100000x1_S3200000x1_S3200000x1_1_0_0_1_wf : ScatterDims.WF S100000x1 S3200000x1 S3200000x1 [1] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x24_S5000x24_1_0_0_1_n_n_wf : DotDims.WF S5000x32 S32x24 S5000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S5000x24_S24x24_S5000x24_1_0_0_1_n_n_wf : DotDims.WF S5000x24 S24x24 S5000x24 [1] [0] [0] [1] [] []
  dot_S5000x24_S24x12_S5000x12_1_0_0_1_n_n_wf : DotDims.WF S5000x24 S24x12 S5000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x24.size a ≤ S32x24.size a
  hwx0_3 : ∀ i : grid0.Coords, EltTy.bits .f32 = 32 ∨ (Rect.block (s := S32x24) S32x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x24.size a ≤ S32x24.size a
  hwx0_4 : ∀ i : grid0.Coords, EltTy.bits .f32 = 32 ∨ (Rect.block (s := S32x24) S32x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x24.size a ≤ S1x24.size a
  hwx0_5 : ∀ i : grid0.Coords, EltTy.bits .f32 = 32 ∨ (Rect.block (s := S1x24) S1x24.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x24.size a ≤ S100000x24.size a
  hwx0_6 : ∀ i : grid0.Coords, EltTy.bits .f32 = 32 ∨ (Rect.block (s := S100000x24) S5000x24.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x24.size a ≤ S100000x24.size a
  hwx1_0 : ∀ i : grid1.Coords, EltTy.bits .f32 = 32 ∨ (Rect.block (s := S100000x24) S5000x24.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x24.size a ≤ S100000x24.size a
  hwx1_1 : ∀ i : grid1.Coords, EltTy.bits .f32 = 32 ∨ (Rect.block (s := S100000x24) S5000x24.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S24x24.size a ≤ S24x24.size a
  hwx1_3 : ∀ i : grid1.Coords, EltTy.bits .f32 = 32 ∨ (Rect.block (s := S24x24) S24x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S24x24.size a ≤ S24x24.size a
  hwx1_4 : ∀ i : grid1.Coords, EltTy.bits .f32 = 32 ∨ (Rect.block (s := S24x24) S24x24.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x24.size a ≤ S1x24.size a
  hwx1_5 : ∀ i : grid1.Coords, EltTy.bits .f32 = 32 ∨ (Rect.block (s := S1x24) S1x24.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x24.size a ≤ S100000x24.size a
  hwx1_6 : ∀ i : grid1.Coords, EltTy.bits .f32 = 32 ∨ (Rect.block (s := S100000x24) S5000x24.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x24.size a ≤ S100000x24.size a
  hwx2_0 : ∀ i : grid2.Coords, EltTy.bits .f32 = 32 ∨ (Rect.block (s := S100000x24) S5000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x24.size a ≤ S100000x24.size a
  hwx2_1 : ∀ i : grid2.Coords, EltTy.bits .f32 = 32 ∨ (Rect.block (s := S100000x24) S5000x24.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S24x12.size a ≤ S24x12.size a
  hwx2_3 : ∀ i : grid2.Coords, EltTy.bits .f32 = 32 ∨ (Rect.block (s := S24x12) S24x12.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S24x12.size a ≤ S24x12.size a
  hwx2_4 : ∀ i : grid2.Coords, EltTy.bits .f32 = 32 ∨ (Rect.block (s := S24x12) S24x12.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x12.size a ≤ S1x12.size a
  hwx2_5 : ∀ i : grid2.Coords, EltTy.bits .f32 = 32 ∨ (Rect.block (s := S1x12) S1x12.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x12.size a ≤ S100000x12.size a
  hwx2_6 : ∀ i : grid2.Coords, EltTy.bits .f32 = 32 ∨ (Rect.block (s := S100000x12) S5000x12.size (cc2_transform_6 i) (hinb2_6 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x24_S5000x24_1_0_0_1_n_n : DotDims S5000x32 S32x24 S5000x24 where
  lhsContracting := [1]
  rhsContracting := [0]
  lhsNonContracting := [0]
  rhsNonContracting := [1]
  lhsBatch := []
  rhsBatch := []
  wf := dot_S5000x32_S32x24_S5000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S5000x24_S24x24_S5000x24_1_0_0_1_n_n : DotDims S5000x24 S24x24 S5000x24 where
  lhsContracting := [1]
  rhsContracting := [0]
  lhsNonContracting := [0]
  rhsNonContracting := [1]
  lhsBatch := []
  rhsBatch := []
  wf := dot_S5000x24_S24x24_S5000x24_1_0_0_1_n_n_wf
def dot_S5000x24_S24x12_S5000x12_1_0_0_1_n_n : DotDims S5000x24 S24x12 S5000x12 where
  lhsContracting := [1]
  rhsContracting := [0]
  lhsNonContracting := [0]
  rhsNonContracting := [1]
  lhsBatch := []
  rhsBatch := []
  wf := dot_S5000x24_S24x12_S5000x12_1_0_0_1_n_n_wf

abbrev win0_0 : Pipeline.Window sig grid0 :=
  Pipeline.Window.ofSpec (Memref.whole main_v21) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x24.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S24x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S24x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x24.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x24.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x24.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S24x12.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S24x12.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x12.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x12.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x24 : Shape := ⟨2, ![32, 24]⟩
abbrev S24 : Shape := ⟨1, ![24]⟩
abbrev S24x24 : Shape := ⟨2, ![24, 24]⟩
abbrev S24x12 : Shape := ⟨2, ![24, 12]⟩
abbrev S12 : Shape := ⟨1, ![12]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S100000x24 : Shape := ⟨2, ![100000, 24]⟩
abbrev S1x24 : Shape := ⟨2, ![1, 24]⟩
abbrev S3200000x24 : Shape := ⟨2, ![3200000, 24]⟩
abbrev S100000x12 : Shape := ⟨2, ![100000, 12]⟩
abbrev S1x12 : Shape := ⟨2, ![1, 12]⟩

abbrev nBuf : Space → Nat
  | .hbm => 119
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x24, .f32⟩
  | .hbm, ⟨3, _⟩ => ⟨S32x24, .f32⟩
  | .hbm, ⟨4, _⟩ => ⟨S24, .f32⟩
  | .hbm, ⟨5, _⟩ => ⟨S24x24, .f32⟩
  | .hbm, ⟨6, _⟩ => ⟨S24x24, .f32⟩
  | .hbm, ⟨7, _⟩ => ⟨S24, .f32⟩
  | .hbm, ⟨8, _⟩ => ⟨S24x12, .f32⟩
  | .hbm, ⟨9, _⟩ => ⟨S24x12, .f32⟩
  | .hbm, ⟨10, _⟩ => ⟨S12, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S_, .f32⟩
  | .hbm, ⟨29, _⟩ => ⟨S3200000x1, .f32⟩
  | .hbm, ⟨30, _⟩ => ⟨S_, .f32⟩
  | .hbm, ⟨31, _⟩ => ⟨S100000x1, .f32⟩
  | .hbm, ⟨32, _⟩ => ⟨S3200000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S100000x24, .f32⟩
  | .hbm, ⟨40, _⟩ => ⟨S100000x24, .f32⟩
  | .hbm, ⟨41, _⟩ => ⟨S100000x24, .f32⟩
  | .hbm, ⟨42, _⟩ => ⟨S1x24, .f32⟩
  | .hbm, ⟨43, _⟩ => ⟨S100000x24, .f32⟩
  | .hbm, ⟨44, _⟩ => ⟨S100000x24, .f32⟩
  | .hbm, ⟨45, _⟩ => ⟨S_, .f32⟩
  | .hbm, ⟨46, _⟩ => ⟨S100000x24, .f32⟩
  | .hbm, ⟨47, _⟩ => ⟨S100000x24, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x24, .f32⟩
  | .hbm, ⟨57, _⟩ => ⟨S_, .f32⟩
  | .hbm, ⟨58, _⟩ => ⟨S100000x24, .f32⟩
  | .hbm, ⟨59, _⟩ => ⟨S3200000x1, .i32⟩
  | .hbm, ⟨60, _⟩ => ⟨S100000x24, .f32⟩
  | .hbm, ⟨61, _⟩ => ⟨S_, .f32⟩
  | .hbm, ⟨62, _⟩ => ⟨S3200000x1, .f32⟩
  | .hbm, ⟨63, _⟩ => ⟨S_, .f32⟩
  | .hbm, ⟨64, _⟩ => ⟨S100000x1, .f32⟩
  | .hbm, ⟨65, _⟩ => ⟨S3200000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x24, .f32⟩
  | .hbm, ⟨71, _⟩ => ⟨S100000x24, .f32⟩
  | .hbm, ⟨72, _⟩ => ⟨S100000x24, .f32⟩
  | .hbm, ⟨73, _⟩ => ⟨S100000x24, .f32⟩
  | .hbm, ⟨74, _⟩ => ⟨S100000x24, .f32⟩
  | .hbm, ⟨75, _⟩ => ⟨S1x24, .f32⟩
  | .hbm, ⟨76, _⟩ => ⟨S100000x24, .f32⟩
  | .hbm, ⟨77, _⟩ => ⟨S100000x24, .f32⟩
  | .hbm, ⟨78, _⟩ => ⟨S_, .f32⟩
  | .hbm, ⟨79, _⟩ => ⟨S100000x24, .f32⟩
  | .hbm, ⟨80, _⟩ => ⟨S100000x24, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x24, .f32⟩
  | .hbm, ⟨90, _⟩ => ⟨S_, .f32⟩
  | .hbm, ⟨91, _⟩ => ⟨S100000x24, .f32⟩
  | .hbm, ⟨92, _⟩ => ⟨S3200000x1, .i32⟩
  | .hbm, ⟨93, _⟩ => ⟨S100000x24, .f32⟩
  | .hbm, ⟨94, _⟩ => ⟨S_, .f32⟩
  | .hbm, ⟨95, _⟩ => ⟨S3200000x1, .f32⟩
  | .hbm, ⟨96, _⟩ => ⟨S_, .f32⟩
  | .hbm, ⟨97, _⟩ => ⟨S100000x1, .f32⟩
  | .hbm, ⟨98, _⟩ => ⟨S3200000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x24, .f32⟩
  | .hbm, ⟨104, _⟩ => ⟨S100000x24, .f32⟩
  | .hbm, ⟨105, _⟩ => ⟨S100000x12, .f32⟩
  | .hbm, ⟨106, _⟩ => ⟨S100000x12, .f32⟩
  | .hbm, ⟨107, _⟩ => ⟨S100000x12, .f32⟩
  | .hbm, ⟨108, _⟩ => ⟨S1x12, .f32⟩
  | .hbm, ⟨109, _⟩ => ⟨S100000x12, .f32⟩
  | .hbm, ⟨110, _⟩ => ⟨S100000x12, .f32⟩
  | .hbm, ⟨111, _⟩ => ⟨S100000x12, .f32⟩
  | .hbm, ⟨112, _⟩ => ⟨S100000x12, .f32⟩
  | .hbm, ⟨113, _⟩ => ⟨S_, .f32⟩
  | .hbm, ⟨114, _⟩ => ⟨S100000x12, .f32⟩
  | .hbm, ⟨115, _⟩ => ⟨S100000x12, .f32⟩
  | .hbm, ⟨116, _⟩ => ⟨S_, .f32⟩
  | .hbm, ⟨117, _⟩ => ⟨S100000x12, .f32⟩
  | .hbm, ⟨118, _⟩ => ⟨S100000x12, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S_S100000x12 : S_.BroadcastsInDim S100000x12 (![] : Fin 0 → Fin S100000x12.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S100000x32_S32x24_S100000x24_1_0_0_1_n_n_wf : DotDims.WF S100000x32 S32x24 S100000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S100000x24_S24x24_S100000x24_1_0_0_1_n_n_wf : DotDims.WF S100000x24 S24x24 S100000x24 [1] [0] [0] [1] [] []
  dot_S100000x24_S24x12_S100000x12_1_0_0_1_n_n_wf : DotDims.WF S100000x24 S24x12 S100000x12 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x32_S32x24_S100000x24_1_0_0_1_n_n : DotDims S100000x32 S32x24 S100000x24 where
  lhsContracting := [1]
  rhsContracting := [0]
  lhsNonContracting := [0]
  rhsNonContracting := [1]
  lhsBatch := []
  rhsBatch := []
  wf := dot_S100000x32_S32x24_S100000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x24_S24x24_S100000x24_1_0_0_1_n_n : DotDims S100000x24 S24x24 S100000x24 where
  lhsContracting := [1]
  rhsContracting := [0]
  lhsNonContracting := [0]
  rhsNonContracting := [1]
  lhsBatch := []
  rhsBatch := []
  wf := dot_S100000x24_S24x24_S100000x24_1_0_0_1_n_n_wf
def dot_S100000x24_S24x12_S100000x12_1_0_0_1_n_n : DotDims S100000x24 S24x12 S100000x12 where
  lhsContracting := [1]
  rhsContracting := [0]
  lhsNonContracting := [0]
  rhsNonContracting := [1]
  lhsBatch := []
  rhsBatch := []
  wf := dot_S100000x24_S24x12_S100000x12_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«140335_j32375463477418_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«140335_j32375463477418_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«140335_j32375463477418_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«140335_j32375463477418_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«140335_j32375463477418_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibPairLayer.lean ====
/-
  A DENSE LAYER WITH TWO INPUTS, at the ideal values.

  A node of a bipartite graph keeps its own feature row `x` and receives the mean `h` of its neighbours' rows; its new row
  is  `j ↦ ((∑ k, x k · ws k j) + (∑ k, h k · wn k j)) + b j`,  optionally rectified (the larger of each entry and
  zero).  Stated here for any number `R` of rows, any inner extent `K` and any width `N`, as one whole-array function
  `pairLayer x h ws wn b` built from the product `prodArr`, the entrywise sum `addArr` and the bias repeated on every
  row (`biasRows`).  Row `p` of the result depends only on row `p` of `x` and of `h` (`pairLayer_rows`), so the layer of
  a block of rows is that block of rows of the layer of the whole arrays.  Two spellings are shown equal to it:
  • on the vector unit, two matrix products into zero accumulators over operands whose change of format is the identity,
    added, plus a one-row bias `[1, N]` broadcast over the rows (`kpair`), and the same under the rectifier with a splat
    zero (`kpair_relu`);
  • on the host, two `dot_general`s added, plus the bias `[N]` broadcast to one row and then over the rows (`hpair`), and
    the same under the rectifier with the zero constant broadcast from a scalar (`hpair_relu`).
  The sums are compared term by term in the order written: no sum is regrouped and nothing is assumed finite.
-/
import proofs.«140335_j32375463477418_2_alg».proof.Proof.LibRowBias
import proofs.«140335_j32375463477418_2_alg».proof.Proof.LibProdRows

noncomputable section

open scoped BigOperators

namespace Cert.PairLayer

open Idealize.ShloMosaic Idealize.ShloMosaic.ValueIdx Cert.DenseRow Cert.RowBias Cert.ProdRows
open Cert.KernelIdeal.RegionValue (prodArr prodArr_apply)

/-! ## The bias on every row -/

/-- A vector of `N` numbers repeated on each of `R` rows. -/
def biasRows {R N : ℕ} (b : (⟨1, ![N]⟩ : Shape).Idx → EReal) : (⟨2, ![R, N]⟩ : Shape).Idx → EReal :=
  fun i => b (ix1 (i 1))

theorem biasRows_apply {R N : ℕ} (b : (⟨1, ![N]⟩ : Shape).Idx → EReal) (p : Fin R) (c : Fin N) :
    biasRows (R := R) b (ix2 p c) = b (ix1 c) := rfl

/-- On the vector unit: a one-row array cast to itself and broadcast over the rows repeats its row. -/
theorem kbias {R N : ℕ} (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ v hc) hb = biasRows (unrow v) := by
  funext i
  obtain ⟨p, c, rfl⟩ : ∃ (p : Fin R) (c : Fin N), i = ix2 p c := ⟨i 0, i 1, eq_ix2 i⟩
  rw [shapeCast_self, broadcastTo_1b_ab_apply]
  rfl

/-- On the host: a vector broadcast to one row and then over the rows repeats it. -/
theorem hbias {R N : ℕ} (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    broadcastInDim ⟨2, ![R, N]⟩ ![0, 1] h2 (broadcastInDim ⟨2, ![1, N]⟩ ![1] h1 b) = biasRows b := by
  funext i
  obtain ⟨p, c, rfl⟩ : ∃ (p : Fin R) (c : Fin N), i = ix2 p c := ⟨i 0, i 1, eq_ix2 i⟩
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-! ## The layer -/

/-- `x · ws + h · wn + b` on every row. -/
def pairLayer {R K N : ℕ} (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  addArr (addArr (prodArr x ws) (prodArr h wn)) (biasRows b)

theorem pairLayer_apply {R K N : ℕ} (x h : (⟨2, ![R, K]⟩ : Shape).Idx → EReal) (ws wn : (⟨2, ![K, N]⟩ : Shape).Idx → EReal)
    (b : (⟨1, ![N]⟩ : Shape).Idx → EReal) (p : Fin R) (c : Fin N) :
    pairLayer x h ws wn b (ix2 p c)
      = ((∑ k : Fin K, x (ix2 p k) * ws (ix2 k c)) + (∑ k : Fin K, h (ix2 p k) * wn (ix2 k c))) + b (ix1 c) := rfl

/-- Row `p` of the layer depends on row `p` of the two tall operands only. -/
theorem pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    pairLayer x h ws wn b (ix2 p c) = pairLayer X H ws wn b (ix2 p' c) := by
  rw [pairLayer_apply, pairLayer_apply]
  rw [show (∑ k : Fin K, x (ix2 p k) * ws (ix2 k c)) = ∑ k : Fin K, X (ix2 p' k) * ws (ix2 k c) from
      Finset.sum_congr rfl fun k _ => by rw [hx k],
    show (∑ k : Fin K, h (ix2 p k) * wn (ix2 k c)) = ∑ k : Fin K, H (ix2 p' k) * wn (ix2 k c) from
      Finset.sum_congr rfl fun k _ => by rw [hh k]]

/-- The same under the rectifier. -/
theorem relu_pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    actArr zf (pairLayer x h ws wn b) (ix2 p c) = actArr zf (pairLayer X H ws wn b) (ix2 p' c) :=
  actArr_rows zf _ _ p p' (fun j => pairLayer_rows x h X H ws wn b p p' hx hh j) c

/-! ## The vector unit's spelling -/

/-- Two products into zero accumulators over operands cast to themselves and changed of format, added, plus the one-row
    bias broadcast over the rows. -/
theorem kpair {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4)
      = pairLayer x0 x1 x2 x3 (unrow x4) := by
  rw [kbias, kprod, kprod, shapeCast_self, shapeCast_self]
  rfl

/-- The same under the rectifier: the larger of the layer and the zero word splat over it. -/
theorem kpair_relu {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    maximumf (addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4))
      (broadcast ⟨2, ![R, N]⟩ (Scalar.ofBits (F := Ideal) .f32 0x00000000#32))
      = actArr zf (pairLayer x0 x1 x2 x3 (unrow x4)) := by
  rw [kact, kpair]

/-! ## The host's spelling -/

/-- Two `dot_general`s added, plus the bias broadcast to one row and then over the rows. -/
theorem hpair {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b))
      = pairLayer x h ws wn b := by
  rw [hbias, hprod, hprod]
  rfl

/-- The same under the rectifier: the larger of the layer and the zero constant broadcast from a scalar. -/
theorem hpair_relu {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (pairLayer x h ws wn b) := by
  rw [hact, hpair]

end Cert.PairLayer

end
-- ==== Proof.LibMeanScale.lean ====
/-
  ROWS SCALED BY A COLUMN, AND A MEAN TAKEN TWO WAYS, at the ideal values.

  A mean over a node's neighbours is the sum of their rows divided by their number.  Two spellings occur.  One divides
  every entry of row `p` of the sum `a` by `D p` (the count, raised to at least one).  The other first takes the reciprocal
  `1 / D p` once per row, keeps it as a column `[R, 1]`, and multiplies row `p` of `a` by it.  On the extended reals
  `x / y` is `x · y⁻¹` whenever `y ≠ 0`, and `1 · z = z`, so  `x · (1 / y) = x / y`  for EVERY extended real `x` and
  every `y ≠ 0`, infinite ones included: nothing has to be finite (`mul_one_div`).  A count raised to at least one is
  never zero (`max_one_ne_zero`).
  Stated for any number `R` of rows and any width `K`:
  • `scaleRows a s`: row `p` of `a` times the one entry of row `p` of the column `s`; it depends on row `p` only
    (`scaleRows_rows`);
  • `kscale`: on the vector unit, the product of `a` (cast to itself) with the column cast to itself and broadcast along
    the rows IS `scaleRows a s`;
  • `hmean`: on the host, the quotient of `a` by the vector `D` broadcast to a column and then along the rows IS
    `scaleRows a` of the column obtained by reshaping `one / D`, when `one` is 1 everywhere and `D` is nowhere zero;
  • the two layout facts used: a column broadcast along the rows (`broadcastTo_a1_ab_apply`), a vector reshaped to a
    column (`shapeCast_a_a1_apply`), a vector broadcast to a column and a column broadcast along the rows on the host
    (`bcast_a_a1_apply`, `bcast_a1_ab_apply`), a scalar constant broadcast to any shape (`bcast_const_apply`).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanScale

open Idealize.ShloMosaic Idealize.ShloMosaic.ValueIdx

/-! ## The law on the extended reals -/

/-- The float word of 1.0 is the number one. -/
theorem ofBits_one : Ideal.ofBits .f32 0x3F800000#32 = 1 := by
  simp [Ideal.ofBits, Ideal.ieee, -EReal.coe_mul]; norm_num

/-- Multiplying by the reciprocal is dividing, for every extended real `x` and every divisor other than zero. -/
theorem mul_one_div {x y : EReal} (hy : y ≠ 0) : x * Ideal.div 1 y = Ideal.div x y := by
  unfold Ideal.div
  rw [if_neg hy, if_neg hy, one_mul]

/-- A number raised to at least one is not zero. -/
theorem max_one_ne_zero (d : EReal) : max d 1 ≠ 0 :=
  ne_of_gt (lt_of_lt_of_le zero_lt_one (le_max_right d 1))

/-! ## Layout facts -/

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` reshaped to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- On the host: a vector `[a]` broadcast to a column `[a, 1]` along axis 0 reads, at `(p, u)`, the vector at `p`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- On the host: a column `[a, 1]` broadcast to `[a, b]` reads, at `(p, c)`, the column's entry of row `p`. -/
theorem bcast_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) :=
  broadcastInDim_apply _ h v (ix2 p c) (ix2 p (0 : Fin 1)) fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rw [if_pos rfl]

/-- A scalar float constant broadcast to any shape reads its word's value everywhere. -/
theorem bcast_const_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := by
  rw [broadcastInDim_apply _ h _ i ix0 (fun a => a.elim0)]
  rfl

/-! ## Rows scaled by a column -/

/-- Row `p` of `a` times the one entry of row `p` of the column `s`. -/
def scaleRows {R K : ℕ} (a : (⟨2, ![R, K]⟩ : Shape).Idx → EReal) (s : (⟨2, ![R, 1]⟩ : Shape).Idx → EReal) :
    (⟨2, ![R, K]⟩ : Shape).Idx → EReal :=
  fun i => a i * s (ix2 (i 0) (0 : Fin 1))

theorem scaleRows_apply {R K : ℕ} (a : (⟨2, ![R, K]⟩ : Shape).Idx → EReal) (s : (⟨2, ![R, 1]⟩ : Shape).Idx → EReal)
    (p : Fin R) (k : Fin K) : scaleRows a s (ix2 p k) = a (ix2 p k) * s (ix2 p (0 : Fin 1)) := rfl

/-- Row `p` of the scaled array depends on row `p` of the array and of the column only. -/
theorem scaleRows_rows {R R' K : ℕ} (a : (⟨2, ![R, K]⟩ : Shape).Idx → EReal) (s : (⟨2, ![R, 1]⟩ : Shape).Idx → EReal)
    (A : (⟨2, ![R', K]⟩ : Shape).Idx → EReal) (S : (⟨2, ![R', 1]⟩ : Shape).Idx → EReal) (p : Fin R) (p' : Fin R')
    (ha : ∀ k : Fin K, a (ix2 p k) = A (ix2 p' k)) (hs : s (ix2 p (0 : Fin 1)) = S (ix2 p' (0 : Fin 1))) (k : Fin K) :
    scaleRows a s (ix2 p k) = scaleRows A S (ix2 p' k) := by
  rw [scaleRows_apply, scaleRows_apply, ha k, hs]

/-- On the vector unit: the array cast to itself times the column cast to itself and broadcast along the rows. -/
theorem kscale {R K : ℕ} (a : FVec Ideal ⟨2, ![R, K]⟩ .f32) (s : FVec Ideal ⟨2, ![R, 1]⟩ .f32)
    (ha : (⟨2, ![R, K]⟩ : Shape).ShapeCasts ⟨2, ![R, K]⟩) (hs : (⟨2, ![R, 1]⟩ : Shape).ShapeCasts ⟨2, ![R, 1]⟩)
    (hb : (⟨2, ![R, 1]⟩ : Shape).Broadcasts ⟨2, ![R, K]⟩) :
    mulf (shapeCast ⟨2, ![R, K]⟩ a ha) (broadcastTo ⟨2, ![R, K]⟩ (shapeCast ⟨2, ![R, 1]⟩ s hs) hb) = scaleRows a s := by
  funext i
  obtain ⟨p, k, rfl⟩ : ∃ (p : Fin R) (k : Fin K), i = ix2 p k := ⟨i 0, i 1, eq_ix2 i⟩
  show (shapeCast ⟨2, ![R, K]⟩ a ha (ix2 p k) : EReal) * broadcastTo ⟨2, ![R, K]⟩ (shapeCast ⟨2, ![R, 1]⟩ s hs) hb (ix2 p k) = _
  rw [shapeCast_self, shapeCast_self, broadcastTo_a1_ab_apply]
  rfl

/-- On the host: the array divided by the vector `D` broadcast to a column and then along the rows is the array scaled
    by the column of reciprocals `one / D`, when `one` is 1 everywhere and `D` is nowhere zero. -/
theorem hmean {R K : ℕ} (a : FVec Ideal ⟨2, ![R, K]⟩ .f32) (one D : FVec Ideal ⟨1, ![R]⟩ .f32)
    (h1 : (⟨1, ![R]⟩ : Shape).BroadcastsInDim ⟨2, ![R, 1]⟩ ![0]) (h2 : (⟨2, ![R, 1]⟩ : Shape).BroadcastsInDim ⟨2, ![R, K]⟩ ![0, 1])
    (hc : (⟨1, ![R]⟩ : Shape).ShapeCasts ⟨2, ![R, 1]⟩) (hone : ∀ i, one i = 1) (hD : ∀ i, D i ≠ 0) :
    Host.divf a (broadcastInDim ⟨2, ![R, K]⟩ ![0, 1] h2 (broadcastInDim ⟨2, ![R, 1]⟩ ![0] h1 D))
      = scaleRows a (shapeCast ⟨2, ![R, 1]⟩ (Host.divf one D) hc) := by
  funext i
  obtain ⟨p, k, rfl⟩ : ∃ (p : Fin R) (k : Fin K), i = ix2 p k := ⟨i 0, i 1, eq_ix2 i⟩
  rw [scaleRows_apply, shapeCast_a_a1_apply]
  show Ideal.div (a (ix2 p k)) (broadcastInDim ⟨2, ![R, K]⟩ ![0, 1] h2 (broadcastInDim ⟨2, ![R, 1]⟩ ![0] h1 D) (ix2 p k))
      = a (ix2 p k) * Ideal.div (one (ix1 p)) (D (ix1 p))
  rw [bcast_a1_ab_apply, bcast_a_a1_apply, hone, mul_one_div (hD (ix1 p))]

end Cert.MeanScale

end
-- ==== Proof.LibMeanLayer.lean ====
/-
  A GRAPH LAYER WHOSE FIRST INPUT IS THE MEAN OVER A NODE'S NEIGHBOURS, at the ideal values.

  A node receives the SUM `agg` of its neighbours' feature rows and one number `s` per node, and keeps its own row `x`.
  Its new row is
      j ↦ ((∑ k, (agg k · s) · wl k j) + (∑ k, x k · wr k j)) + b j,
  LibPairLayer's two-input layer applied to the scaled sum `agg · s` (LibMeanScale's `scaleRows`) FIRST and to the
  node's own row second, as one whole-array function `meanLayer agg s x wl wr b` for any number `R` of rows, inner extent
  `K` and width `N`.  It is followed by the rectifier (`actArr zf`) or by the logistic function on every entry
  (`logArr`).  Row `p` of it depends only on row `p` of `agg`, of the column `s` and of `x` (`meanLayer_rows`), and
  the two entrywise functions keep that (`relu_meanLayer_rows`, `logistic_meanLayer_rows`): the layer of a block of rows
  is that block of rows of the layer of the whole arrays (`meanLayer_block`, at indices given by their coordinates' values;
  `actArr_at`, `logArr_at` carry an entrywise function across).  Spellings shown equal to it:
  • on the vector unit: two matrix products into zero accumulators, the first over the product of `agg` with the column
    broadcast along the rows, the second over `x` as loaded (`kmean`) or cast to itself (`kmean_cast`), added, plus a
    one-row bias broadcast over the rows; then the rectifier with a splat zero (`kmean_relu`, `kmean_cast_relu`) or the
    logistic operation (`kmean_cast_logistic`); changes of float format are the identity;
  • on the host: two `dot_general`s, the first over the QUOTIENT of `agg` by a column `D` of counts broadcast along the
    rows, added, plus the bias broadcast to one row and over the rows (`hmean_layer`): equal to `meanLayer` at the column
    of reciprocals `one / D` whenever `one` is 1 everywhere and `D` is nowhere zero, because `x · (1 / y) = x / y` for
    every extended real `x` and every `y ≠ 0` (LibMeanScale `mul_one_div`); then the rectifier with the zero constant
    broadcast from a scalar (`hmean_relu`), or the logistic function written out as `1 / (1 + e^(−y))` with the ones
    broadcast from a scalar (`hmean_logistic`), which is the logistic function by its definition.
  No sum is regrouped and nothing is assumed finite.
-/
import proofs.«140335_j32375463477418_2_alg».proof.Proof.LibPairLayer
import proofs.«140335_j32375463477418_2_alg».proof.Proof.LibMeanScale

noncomputable section

open scoped BigOperators

namespace Cert.MeanLayer

open Idealize.ShloMosaic Idealize.ShloMosaic.ValueIdx Cert.DenseRow Cert.RowBias Cert.ProdRows Cert.PairLayer Cert.MeanScale
open Cert.KernelIdeal.RegionValue (prodArr prodArr_apply)

/-! ## The layer -/

/-- The two-input layer over the mean `agg · s` of a node's neighbours' rows (first) and the node's own row `x`. -/
def meanLayer {R K N : ℕ} (agg : (⟨2, ![R, K]⟩ : Shape).Idx → EReal) (s : (⟨2, ![R, 1]⟩ : Shape).Idx → EReal)
    (x : (⟨2, ![R, K]⟩ : Shape).Idx → EReal) (wl wr : (⟨2, ![K, N]⟩ : Shape).Idx → EReal)
    (b : (⟨1, ![N]⟩ : Shape).Idx → EReal) : (⟨2, ![R, N]⟩ : Shape).Idx → EReal :=
  pairLayer (scaleRows agg s) x wl wr b

/-- Row `p` of the layer depends on row `p` of the neighbour sums, of the column and of the node rows only. -/
theorem meanLayer_rows {R R' K N : ℕ} (agg : (⟨2, ![R, K]⟩ : Shape).Idx → EReal) (s : (⟨2, ![R, 1]⟩ : Shape).Idx → EReal)
    (x : (⟨2, ![R, K]⟩ : Shape).Idx → EReal) (AGG : (⟨2, ![R', K]⟩ : Shape).Idx → EReal)
    (S : (⟨2, ![R', 1]⟩ : Shape).Idx → EReal) (X : (⟨2, ![R', K]⟩ : Shape).Idx → EReal)
    (wl wr : (⟨2, ![K, N]⟩ : Shape).Idx → EReal) (b : (⟨1, ![N]⟩ : Shape).Idx → EReal) (p : Fin R) (p' : Fin R')
    (hagg : ∀ k : Fin K, agg (ix2 p k) = AGG (ix2 p' k)) (hs : s (ix2 p (0 : Fin 1)) = S (ix2 p' (0 : Fin 1)))
    (hx : ∀ k : Fin K, x (ix2 p k) = X (ix2 p' k)) (c : Fin N) :
    meanLayer agg s x wl wr b (ix2 p c) = meanLayer AGG S X wl wr b (ix2 p' c) :=
  pairLayer_rows (scaleRows agg s) x (scaleRows AGG S) X wl wr b p p'
    (fun k => scaleRows_rows agg s AGG S p p' hagg hs k) hx c

/-- The same under the rectifier. -/
theorem relu_meanLayer_rows {R R' K N : ℕ} (agg : (⟨2, ![R, K]⟩ : Shape).Idx → EReal) (s : (⟨2, ![R, 1]⟩ : Shape).Idx → EReal)
    (x : (⟨2, ![R, K]⟩ : Shape).Idx → EReal) (AGG : (⟨2, ![R', K]⟩ : Shape).Idx → EReal)
    (S : (⟨2, ![R', 1]⟩ : Shape).Idx → EReal) (X : (⟨2, ![R', K]⟩ : Shape).Idx → EReal)
    (wl wr : (⟨2, ![K, N]⟩ : Shape).Idx → EReal) (b : (⟨1, ![N]⟩ : Shape).Idx → EReal) (p : Fin R) (p' : Fin R')
    (hagg : ∀ k : Fin K, agg (ix2 p k) = AGG (ix2 p' k)) (hs : s (ix2 p (0 : Fin 1)) = S (ix2 p' (0 : Fin 1)))
    (hx : ∀ k : Fin K, x (ix2 p k) = X (ix2 p' k)) (c : Fin N) :
    actArr zf (meanLayer agg s x wl wr b) (ix2 p c) = actArr zf (meanLayer AGG S X wl wr b) (ix2 p' c) :=
  actArr_rows zf _ _ p p' (fun j => meanLayer_rows agg s x AGG S X wl wr b p p' hagg hs hx j) c

/-- The logistic function `y ↦ 1 / (1 + e^(−y))` on every entry. -/
def logArr {s : Shape} (y : s.Idx → EReal) : s.Idx → EReal := fun i => Ideal.logistic (y i)

theorem logArr_rows {R R' N : ℕ} (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    logArr y (ix2 p c) = logArr Y (ix2 p' c) := by
  show Ideal.logistic (y (ix2 p c)) = Ideal.logistic (Y (ix2 p' c))
  rw [h c]

/-- The same under the logistic function. -/
theorem logistic_meanLayer_rows {R R' K N : ℕ} (agg : (⟨2, ![R, K]⟩ : Shape).Idx → EReal) (s : (⟨2, ![R, 1]⟩ : Shape).Idx → EReal)
    (x : (⟨2, ![R, K]⟩ : Shape).Idx → EReal) (AGG : (⟨2, ![R', K]⟩ : Shape).Idx → EReal)
    (S : (⟨2, ![R', 1]⟩ : Shape).Idx → EReal) (X : (⟨2, ![R', K]⟩ : Shape).Idx → EReal)
    (wl wr : (⟨2, ![K, N]⟩ : Shape).Idx → EReal) (b : (⟨1, ![N]⟩ : Shape).Idx → EReal) (p : Fin R) (p' : Fin R')
    (hagg : ∀ k : Fin K, agg (ix2 p k) = AGG (ix2 p' k)) (hs : s (ix2 p (0 : Fin 1)) = S (ix2 p' (0 : Fin 1)))
    (hx : ∀ k : Fin K, x (ix2 p k) = X (ix2 p' k)) (c : Fin N) :
    logArr (meanLayer agg s x wl wr b) (ix2 p c) = logArr (meanLayer AGG S X wl wr b) (ix2 p' c) :=
  logArr_rows _ _ p p' (fun j => meanLayer_rows agg s x AGG S X wl wr b p p' hagg hs hx j) c

/-! ## A block of rows

The same locality at indices given by the VALUES of their coordinates: the block's index `j` and the array's index `i` name
the same column and `i`'s row is `j`'s row moved down by `off`; the tall operands of the block are those of the arrays
read `off` rows down; the weights and the one-row bias are the same arrays. -/

theorem meanLayer_block {R R' K N : ℕ} (agg : (⟨2, ![R, K]⟩ : Shape).Idx → EReal) (s : (⟨2, ![R, 1]⟩ : Shape).Idx → EReal)
    (x : (⟨2, ![R, K]⟩ : Shape).Idx → EReal) (AGG : (⟨2, ![R', K]⟩ : Shape).Idx → EReal)
    (S : (⟨2, ![R', 1]⟩ : Shape).Idx → EReal) (X : (⟨2, ![R', K]⟩ : Shape).Idx → EReal)
    (wl wr WL WR : (⟨2, ![K, N]⟩ : Shape).Idx → EReal) (v V : (⟨2, ![1, N]⟩ : Shape).Idx → EReal) (off : ℕ)
    (j : (⟨2, ![R, N]⟩ : Shape).Idx) (i : (⟨2, ![R', N]⟩ : Shape).Idx)
    (hi0 : (i 0).val = off + (j 0).val) (hi1 : (i 1).val = (j 1).val)
    (hagg : ∀ (u : (⟨2, ![R, K]⟩ : Shape).Idx) (z : (⟨2, ![R', K]⟩ : Shape).Idx),
      (z 0).val = off + (u 0).val → (z 1).val = (u 1).val → agg u = AGG z)
    (hs : ∀ (u : (⟨2, ![R, 1]⟩ : Shape).Idx) (z : (⟨2, ![R', 1]⟩ : Shape).Idx),
      (z 0).val = off + (u 0).val → (z 1).val = (u 1).val → s u = S z)
    (hx : ∀ (u : (⟨2, ![R, K]⟩ : Shape).Idx) (z : (⟨2, ![R', K]⟩ : Shape).Idx),
      (z 0).val = off + (u 0).val → (z 1).val = (u 1).val → x u = X z)
    (hwl : ∀ u, wl u = WL u) (hwr : ∀ u, wr u = WR u) (hv : ∀ u, v u = V u) :
    meanLayer agg s x wl wr (unrow v) j = meanLayer AGG S X WL WR (unrow V) i := by
  obtain rfl : wl = WL := funext hwl
  obtain rfl : wr = WR := funext hwr
  obtain rfl : v = V := funext hv
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact meanLayer_rows agg s x AGG S X wl wr (unrow v) p p' (fun k => hagg (ix2 p k) (ix2 p' k) hi0 rfl)
    (hs (ix2 p (0 : Fin 1)) (ix2 p' (0 : Fin 1)) hi0 rfl) (fun k => hx (ix2 p k) (ix2 p' k) hi0 rfl) c'

/-- An entrywise function of two arrays that agree at `j` and `i` agrees there: the rectifier, -/
theorem actArr_at {s s' : Shape} (z : EReal) (y : s.Idx → EReal) (Y : s'.Idx → EReal) (j : s.Idx) (i : s'.Idx)
    (h : y j = Y i) : actArr z y j = actArr z Y i := by
  show max (y j) z = max (Y i) z
  rw [h]

/-- and the logistic function. -/
theorem logArr_at {s s' : Shape} (y : s.Idx → EReal) (Y : s'.Idx → EReal) (j : s.Idx) (i : s'.Idx)
    (h : y j = Y i) : logArr y j = logArr Y i := by
  show Ideal.logistic (y j) = Ideal.logistic (Y i)
  rw [h]

/-! ## The vector unit's spellings -/

/-- The node rows enter the second product as loaded. -/
theorem kmean {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc0 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    addf (addf
        (matmul (DotDims.plain R K N) none
          (truncf .bf16 (mulf (shapeCast ⟨2, ![R, K]⟩ x0 hc0) (broadcastTo ⟨2, ![R, K]⟩ (shapeCast ⟨2, ![R, 1]⟩ x2 hc2) hb2)) hbits)
          (truncf .bf16 x3 hbits) (constant ⟨2, ![R, N]⟩ .f32 0x00000000#32))
        (matmul (DotDims.plain R K N) none (truncf .bf16 x1 hbits) (truncf .bf16 x4 hbits)
          (constant ⟨2, ![R, N]⟩ .f32 0x00000000#32)))
      (broadcastTo ⟨2, ![R, N]⟩ (shapeCast ⟨2, ![1, N]⟩ x5 hc5) hb5)
      = meanLayer x0 x2 x1 x3 x4 (unrow x5) := by
  rw [kbias, kprod, kprod, kscale]
  rfl

/-- The node rows are cast to themselves before the second product. -/
theorem kmean_cast {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc0 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    addf (addf
        (matmul (DotDims.plain R K N) none
          (truncf .bf16 (mulf (shapeCast ⟨2, ![R, K]⟩ x0 hc0) (broadcastTo ⟨2, ![R, K]⟩ (shapeCast ⟨2, ![R, 1]⟩ x2 hc2) hb2)) hbits)
          (truncf .bf16 x3 hbits) (constant ⟨2, ![R, N]⟩ .f32 0x00000000#32))
        (matmul (DotDims.plain R K N) none (truncf .bf16 (shapeCast ⟨2, ![R, K]⟩ x1 hc0) hbits) (truncf .bf16 x4 hbits)
          (constant ⟨2, ![R, N]⟩ .f32 0x00000000#32)))
      (broadcastTo ⟨2, ![R, N]⟩ (shapeCast ⟨2, ![1, N]⟩ x5 hc5) hb5)
      = meanLayer x0 x2 x1 x3 x4 (unrow x5) := by
  rw [kbias, kprod, kprod, kscale, shapeCast_self]
  rfl

/-- `kmean` under the rectifier: the larger of the layer and the zero word splat over it. -/
theorem kmean_relu {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc0 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    maximumf (addf (addf
        (matmul (DotDims.plain R K N) none
          (truncf .bf16 (mulf (shapeCast ⟨2, ![R, K]⟩ x0 hc0) (broadcastTo ⟨2, ![R, K]⟩ (shapeCast ⟨2, ![R, 1]⟩ x2 hc2) hb2)) hbits)
          (truncf .bf16 x3 hbits) (constant ⟨2, ![R, N]⟩ .f32 0x00000000#32))
        (matmul (DotDims.plain R K N) none (truncf .bf16 x1 hbits) (truncf .bf16 x4 hbits)
          (constant ⟨2, ![R, N]⟩ .f32 0x00000000#32)))
      (broadcastTo ⟨2, ![R, N]⟩ (shapeCast ⟨2, ![1, N]⟩ x5 hc5) hb5))
      (broadcast ⟨2, ![R, N]⟩ (Scalar.ofBits (F := Ideal) .f32 0x00000000#32))
      = actArr zf (meanLayer x0 x2 x1 x3 x4 (unrow x5)) := by
  rw [kact, kmean]

/-- `kmean_cast` under the rectifier. -/
theorem kmean_cast_relu {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc0 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    maximumf (addf (addf
        (matmul (DotDims.plain R K N) none
          (truncf .bf16 (mulf (shapeCast ⟨2, ![R, K]⟩ x0 hc0) (broadcastTo ⟨2, ![R, K]⟩ (shapeCast ⟨2, ![R, 1]⟩ x2 hc2) hb2)) hbits)
          (truncf .bf16 x3 hbits) (constant ⟨2, ![R, N]⟩ .f32 0x00000000#32))
        (matmul (DotDims.plain R K N) none (truncf .bf16 (shapeCast ⟨2, ![R, K]⟩ x1 hc0) hbits) (truncf .bf16 x4 hbits)
          (constant ⟨2, ![R, N]⟩ .f32 0x00000000#32)))
      (broadcastTo ⟨2, ![R, N]⟩ (shapeCast ⟨2, ![1, N]⟩ x5 hc5) hb5))
      (broadcast ⟨2, ![R, N]⟩ (Scalar.ofBits (F := Ideal) .f32 0x00000000#32))
      = actArr zf (meanLayer x0 x2 x1 x3 x4 (unrow x5)) := by
  rw [kact, kmean_cast]

/-- `kmean_cast` under the vector unit's logistic operation. -/
theorem kmean_cast_logistic {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc0 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    logistic (addf (addf
        (matmul (DotDims.plain R K N) none
          (truncf .bf16 (mulf (shapeCast ⟨2, ![R, K]⟩ x0 hc0) (broadcastTo ⟨2, ![R, K]⟩ (shapeCast ⟨2, ![R, 1]⟩ x2 hc2) hb2)) hbits)
          (truncf .bf16 x3 hbits) (constant ⟨2, ![R, N]⟩ .f32 0x00000000#32))
        (matmul (DotDims.plain R K N) none (truncf .bf16 (shapeCast ⟨2, ![R, K]⟩ x1 hc0) hbits) (truncf .bf16 x4 hbits)
          (constant ⟨2, ![R, N]⟩ .f32 0x00000000#32)))
      (broadcastTo ⟨2, ![R, N]⟩ (shapeCast ⟨2, ![1, N]⟩ x5 hc5) hb5))
      = logArr (meanLayer x0 x2 x1 x3 x4 (unrow x5)) := by
  rw [kmean_cast]
  rfl

/-! ## The host's spellings -/

/-- The quotient of `a` by a column `D` broadcast along the rows is `a` scaled by the column of reciprocals `one / D`,
    when `one` is 1 everywhere and `D` is nowhere zero. -/
theorem hmean_col {R K : ℕ} (a : FVec Ideal ⟨2, ![R, K]⟩ .f32) (one D : FVec Ideal ⟨2, ![R, 1]⟩ .f32)
    (h2 : (⟨2, ![R, 1]⟩ : Shape).BroadcastsInDim ⟨2, ![R, K]⟩ ![0, 1]) (hone : ∀ i, one i = 1) (hD : ∀ i, D i ≠ 0) :
    Host.divf a (broadcastInDim ⟨2, ![R, K]⟩ ![0, 1] h2 D) = scaleRows a (Host.divf one D) := by
  funext i
  obtain ⟨p, k, rfl⟩ : ∃ (p : Fin R) (k : Fin K), i = ix2 p k := ⟨i 0, i 1, eq_ix2 i⟩
  rw [scaleRows_apply]
  show Ideal.div (a (ix2 p k)) (broadcastInDim ⟨2, ![R, K]⟩ ![0, 1] h2 D (ix2 p k))
      = a (ix2 p k) * Ideal.div (one (ix2 p (0 : Fin 1))) (D (ix2 p (0 : Fin 1)))
  rw [bcast_a1_ab_apply, hone, mul_one_div (hD (ix2 p (0 : Fin 1)))]

/-- Two `dot_general`s, the first over the quotient by the column of counts, added, plus the bias. -/
theorem hmean_layer {R K N : ℕ} (agg x : FVec Ideal ⟨2, ![R, K]⟩ .f32) (one D : FVec Ideal ⟨2, ![R, 1]⟩ .f32)
    (wl wr : FVec Ideal ⟨2, ![K, N]⟩ .f32) (b : FVec Ideal ⟨1, ![N]⟩ .f32)
    (hd : (⟨2, ![R, 1]⟩ : Shape).BroadcastsInDim ⟨2, ![R, K]⟩ ![0, 1])
    (h1 : (⟨1, ![N]⟩ : Shape).BroadcastsInDim ⟨2, ![1, N]⟩ ![1]) (h2 : (⟨2, ![1, N]⟩ : Shape).BroadcastsInDim ⟨2, ![R, N]⟩ ![0, 1])
    (hone : ∀ i, one i = 1) (hD : ∀ i, D i ≠ 0) :
    addf (addf (Host.dotGeneral (DotDims.plain R K N) none (Host.divf agg (broadcastInDim ⟨2, ![R, K]⟩ ![0, 1] hd D)) wl)
          (Host.dotGeneral (DotDims.plain R K N) none x wr))
        (broadcastInDim ⟨2, ![R, N]⟩ ![0, 1] h2 (broadcastInDim ⟨2, ![1, N]⟩ ![1] h1 b))
      = meanLayer agg (Host.divf one D) x wl wr b := by
  rw [hmean_col agg one D hd hone hD]
  exact hpair _ x wl wr b h1 h2

/-- The same under the rectifier with the zero constant broadcast from a scalar. -/
theorem hmean_relu {R K N : ℕ} (agg x : FVec Ideal ⟨2, ![R, K]⟩ .f32) (one D : FVec Ideal ⟨2, ![R, 1]⟩ .f32)
    (wl wr : FVec Ideal ⟨2, ![K, N]⟩ .f32) (b : FVec Ideal ⟨1, ![N]⟩ .f32)
    (hd : (⟨2, ![R, 1]⟩ : Shape).BroadcastsInDim ⟨2, ![R, K]⟩ ![0, 1])
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![])
    (hone : ∀ i, one i = 1) (hD : ∀ i, D i ≠ 0) :
    maximumf (addf (addf (Host.dotGeneral (DotDims.plain R K N) none (Host.divf agg (broadcastInDim ⟨2, ![R, K]⟩ ![0, 1] hd D)) wl)
          (Host.dotGeneral (DotDims.plain R K N) none x wr))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (meanLayer agg (Host.divf one D) x wl wr b) := by
  rw [hact, hmean_layer agg x one D wl wr b hd h1 h2 hone hD]

/-- The logistic function written out on the host, `1 / (1 + e^(−y))` with both ones broadcast from a scalar. -/
theorem hlogistic {s : Shape} (y : FVec Ideal s .f32) (h0 : (⟨0, ![]⟩ : Shape).BroadcastsInDim s ![]) :
    Host.divf (broadcastInDim s ![] h0 (constant (F := Ideal) ⟨0, ![]⟩ .f32 0x3F800000#32))
        (addf (broadcastInDim s ![] h0 (constant (F := Ideal) ⟨0, ![]⟩ .f32 0x3F800000#32)) (Host.exp (Host.negf y)))
      = logArr y := by
  funext i
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(y i))) = Ideal.logistic (y i)
  rw [bcast_const_apply, ofBits_one]
  rfl

/-- The layer under the host's written-out logistic function. -/
theorem hmean_logistic {R K N : ℕ} (agg x : FVec Ideal ⟨2, ![R, K]⟩ .f32) (one D : FVec Ideal ⟨2, ![R, 1]⟩ .f32)
    (wl wr : FVec Ideal ⟨2, ![K, N]⟩ .f32) (b : FVec Ideal ⟨1, ![N]⟩ .f32)
    (hd : (⟨2, ![R, 1]⟩ : Shape).BroadcastsInDim ⟨2, ![R, K]⟩ ![0, 1])
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![])
    (hone : ∀ i, one i = 1) (hD : ∀ i, D i ≠ 0) :
    Host.divf (broadcastInDim ⟨2, ![R, N]⟩ ![] h0 (constant (F := Ideal) ⟨0, ![]⟩ .f32 0x3F800000#32))
        (addf (broadcastInDim ⟨2, ![R, N]⟩ ![] h0 (constant (F := Ideal) ⟨0, ![]⟩ .f32 0x3F800000#32))
          (Host.exp (Host.negf
            (addf (addf (Host.dotGeneral (DotDims.plain R K N) none (Host.divf agg (broadcastInDim ⟨2, ![R, K]⟩ ![0, 1] hd D)) wl)
                (Host.dotGeneral (DotDims.plain R K N) none x wr))
              (broadcastInDim ⟨2, ![R, N]⟩ ![0, 1] h2 (broadcastInDim ⟨2, ![1, N]⟩ ![1] h1 b))))))
      = logArr (meanLayer agg (Host.divf one D) x wl wr b) := by
  rw [hmean_layer agg x one D wl wr b hd h1 h2 hone hD]
  exact hlogistic _ h0

end Cert.MeanLayer

end
-- ==== Proof.Region0.lean ====
/-
  REGION 0: what the first layer's grid of row blocks leaves in its result array, at the ideal values.

  The grid has 20 points; point `t` is handed rows `5000·t … 5000·t + 4999` of the neighbour sums, of the column of
  reciprocal counts and of the node rows, and the two weight matrices and the one-row bias whole.  Its body computes the
  mean layer of LibMeanLayer on those 5000 rows, rectified, and writes it back as rows `5000·t … 5000·t + 4999` of the
  result.  Each row of the layer depends only on the same row of the tall operands, so block `t` of the result is block
  `t` of the layer of the WHOLE arrays (`flushed_eq`); the 20 blocks cover all 100000 rows (`covered`), so the result
  array ends holding that layer of the arrays the region was entered with (`value`), whatever those are.
-/
import proofs.«140335_j32375463477418_2_alg».proof.Proof.Gen.KernelIdeal.Frame
import proofs.«140335_j32375463477418_2_alg».proof.Proof.LibMeanLayer

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseRow Cert.RowBias Cert.MeanLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def layer (c : Dev nD) : S100000x24.Idx → EReal :=
  actArr zf (meanLayer (R := 100000) (K := 32) (N := 24) (V c main_v21) (V c main_v11) (V c main_arg0) (V c main_arg2) (V c main_arg3) (unrow (V c main_v22)))

/-- The body's arithmetic on one block of 5000 rows is the layer of those rows. -/
theorem pay_eq (x0 : Vec Ideal S5000x32 .f32) (x2 : Vec Ideal S5000x1 .f32) (x1 : Vec Ideal S5000x32 .f32)
    (x3 x4 : Vec Ideal S32x24 .f32) (x5 : Vec Ideal S1x24 .f32) :
    k0_pay1 x0 x2 x1 x3 x4 x5 = actArr zf (meanLayer (R := 5000) (K := 32) (N := 24) x0 x2 x1 x3 x4 (unrow x5)) :=
  kmean_relu (R := 5000) (K := 32) (N := 24) x0 x1 x2 x3 x4 x5 _ _ _ _ _ _

/-- The printed index maps, decided over the 20 grid points: the row-block index of every tall window is the point's
    number, every other block index is zero. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the layer of the whole arrays. -/
theorem flushed_eq (c : Dev nD) (t : Fin cfg0.N) :
    (dat0 (F := Ideal) V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S5000x32) hz, View.ld_unit_zero (S := S5000x1) hz, View.ld_unit_zero (S := S32x24) hz,
    View.ld_unit_zero (S := S1x24) hz]
  rw [pay_eq]
  obtain ⟨a0, a1, b0, b1, c0, c1, d0, d1, e0, e1, f0, f1, g0, g1⟩ := idx_facts t
  funext j
  show actArr zf (meanLayer (R := 5000) (K := 32) (N := 24) (iblk0 V c 0 t) (iblk0 V c 2 t) (iblk0 V c 1 t) (iblk0 V c 3 t) (iblk0 V c 4 t)
      (unrow (iblk0 V c 5 t))) j = layer V c (((cfg0.win 6).blk t).view.emb j)
  unfold layer
  refine actArr_at zf _ _ j _ ?_
  refine meanLayer_block (R := 5000) (R' := 100000) (K := 32) (N := 24) (iblk0 V c 0 t) (iblk0 V c 2 t) (iblk0 V c 1 t)
    (V c main_v21) (V c main_v11) (V c main_arg0) (iblk0 V c 3 t) (iblk0 V c 4 t) (V c main_arg2) (V c main_arg3)
    (iblk0 V c 5 t) (V c main_v22) (t.val * 5000) j (((cfg0.win 6).blk t).view.emb j) ?_ ?_ ?_ ?_ ?_ ?_ ?_ ?_
  · show win0_6.index t (0 : Fin 2) * 5000 + 1 * (j 0).val = t.val * 5000 + (j 0).val
    omega
  · show win0_6.index t (1 : Fin 2) * 24 + 1 * (j 1).val = (j 1).val
    omega
  · intro u z hz0 hz1
    show V c main_v21 (((cfg0.win 0).blk t).view.emb u) = V c main_v21 z
    refine congrArg _ (funext fun a => Fin.ext ?_)
    match a with
    | ⟨0, _⟩ => show win0_0.index t (0 : Fin 2) * 5000 + 1 * (u 0).val = (z 0).val; omega
    | ⟨1, _⟩ => show win0_0.index t (1 : Fin 2) * 32 + 1 * (u 1).val = (z 1).val; omega
  · intro u z hz0 hz1
    show V c main_v11 (((cfg0.win 2).blk t).view.emb u) = V c main_v11 z
    refine congrArg _ (funext fun a => Fin.ext ?_)
    match a with
    | ⟨0, _⟩ => show win0_2.index t (0 : Fin 2) * 5000 + 1 * (u 0).val = (z 0).val; omega
    | ⟨1, _⟩ => show win0_2.index t (1 : Fin 2) * 1 + 1 * (u 1).val = (z 1).val; omega
  · intro u z hz0 hz1
    show V c main_arg0 (((cfg0.win 1).blk t).view.emb u) = V c main_arg0 z
    refine congrArg _ (funext fun a => Fin.ext ?_)
    match a with
    | ⟨0, _⟩ => show win0_1.index t (0 : Fin 2) * 5000 + 1 * (u 0).val = (z 0).val; omega
    | ⟨1, _⟩ => show win0_1.index t (1 : Fin 2) * 32 + 1 * (u 1).val = (z 1).val; omega
  · intro u
    show V c main_arg2 (((cfg0.win 3).blk t).view.emb u) = V c main_arg2 u
    refine congrArg _ (funext fun a => Fin.ext ?_)
    match a with
    | ⟨0, _⟩ => show win0_3.index t (0 : Fin 2) * 32 + 1 * (u 0).val = (u 0).val; omega
    | ⟨1, _⟩ => show win0_3.index t (1 : Fin 2) * 24 + 1 * (u 1).val = (u 1).val; omega
  · intro u
    show V c main_arg3 (((cfg0.win 4).blk t).view.emb u) = V c main_arg3 u
    refine congrArg _ (funext fun a => Fin.ext ?_)
    match a with
    | ⟨0, _⟩ => show win0_4.index t (0 : Fin 2) * 32 + 1 * (u 0).val = (u 0).val; omega
    | ⟨1, _⟩ => show win0_4.index t (1 : Fin 2) * 24 + 1 * (u 1).val = (u 1).val; omega
  · intro u
    show V c main_v22 (((cfg0.win 5).blk t).view.emb u) = V c main_v22 u
    refine congrArg _ (funext fun a => Fin.ext ?_)
    match a with
    | ⟨0, _⟩ => show win0_5.index t (0 : Fin 2) * 1 + 1 * (u 0).val = (u 0).val; omega
    | ⟨1, _⟩ => show win0_5.index t (1 : Fin 2) * 24 + 1 * (u 1).val = (u 1).val; omega

/-- An index of the result array is in point `t`'s block iff each coordinate is in the block's range on its axis. -/
theorem mem_blk (t : Fin cfg0.N) (i : S100000x24.Idx) :
    i ∈ ((cfg0.win 6).blk t).view.set ↔ ∀ a : Fin 2, win0_6.index t a * S5000x24.size a ≤ (i a).val ∧ (i a).val < win0_6.index t a * S5000x24.size a + S5000x24.size a := by
  show i ∈ ((View.whole main_v23).slice (win0_6.rect t)).set ↔ _
  rw [View.set_slice_whole, Rect.mem_set_unit]
  exact Iff.rfl

/-- Every row of the result lies in the block of the point numbered by the row divided by 5000. -/
theorem covered (i : S100000x24.Idx) : ∃ t : Fin cfg0.N, (cfg0.win 6).flush t = true ∧ i ∈ ((cfg0.win 6).blk t).view.set := by
  have hi0 : (i 0).val < 100000 := (i 0).isLt
  have hi1 : (i 1).val < 24 := (i 1).isLt
  refine ⟨⟨(i 0).val / 5000, by show (i 0).val / 5000 < 20; omega⟩, flush0_6 _, ?_⟩
  rw [mem_blk]
  obtain ⟨a0, a1, b0, b1, c0, c1, d0, d1, e0, e1, f0, f1, g0, g1⟩ := idx_facts ⟨(i 0).val / 5000, by show (i 0).val / 5000 < 20; omega⟩
  have g0' : win0_6.index ⟨(i 0).val / 5000, by show (i 0).val / 5000 < 20; omega⟩ (0 : Fin 2) = (i 0).val / 5000 := g0
  intro a
  match a with
  | ⟨0, _⟩ =>
    show win0_6.index _ (0 : Fin 2) * 5000 ≤ (i 0).val ∧ (i 0).val < win0_6.index _ (0 : Fin 2) * 5000 + 5000
    omega
  | ⟨1, _⟩ =>
    show win0_6.index _ (1 : Fin 2) * 24 ≤ (i 1).val ∧ (i 1).val < win0_6.index _ (1 : Fin 2) * 24 + 24
    omega

/-- THE RESULT ARRAY after the region: the layer of the arrays the region was entered with. -/
theorem value (c : Dev nD) : (dat0 (F := Ideal) V c).arrAt 6 cfg0.N = layer V c :=
  (dat0 (F := Ideal) V c).arrAt_eq_of_cover 6 (layer V c) (fun t _ => flushed_eq V c t) (covered)

end Cert.KernelIdeal.Region0

end
-- ==== Proof.Region1.lean ====
/-
  REGION 1: what the second layer's grid of row blocks leaves in its result array, at the ideal values.

  The grid has 20 points; point `t` is handed rows `5000·t … 5000·t + 4999` of the neighbour sums, of the column of
  reciprocal counts and of the node rows, and the two weight matrices and the one-row bias whole.  Its body computes the
  mean layer of LibMeanLayer on those 5000 rows, rectified, and writes it back as rows `5000·t … 5000·t + 4999` of the
  result.  Each row of the layer depends only on the same row of the tall operands, so block `t` of the result is block
  `t` of the layer of the WHOLE arrays (`flushed_eq`); the 20 blocks cover all 100000 rows (`covered`), so the result
  array ends holding that layer of the arrays the region was entered with (`value`), whatever those are.
-/
import proofs.«140335_j32375463477418_2_alg».proof.Proof.Gen.KernelIdeal.Frame
import proofs.«140335_j32375463477418_2_alg».proof.Proof.LibMeanLayer

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseRow Cert.RowBias Cert.MeanLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def layer (c : Dev nD) : S100000x24.Idx → EReal :=
  actArr zf (meanLayer (R := 100000) (K := 24) (N := 24) (V c main_v33) (V c main_v11) (V c main_v23) (V c main_arg5) (V c main_arg6) (unrow (V c main_v34)))

/-- The body's arithmetic on one block of 5000 rows is the layer of those rows. -/
theorem pay_eq (x0 : Vec Ideal S5000x24 .f32) (x2 : Vec Ideal S5000x1 .f32) (x1 : Vec Ideal S5000x24 .f32)
    (x3 x4 : Vec Ideal S24x24 .f32) (x5 : Vec Ideal S1x24 .f32) :
    k1_pay1 x0 x2 x1 x3 x4 x5 = actArr zf (meanLayer (R := 5000) (K := 24) (N := 24) x0 x2 x1 x3 x4 (unrow x5)) :=
  kmean_cast_relu (R := 5000) (K := 24) (N := 24) x0 x1 x2 x3 x4 x5 _ _ _ _ _ _

/-- The printed index maps, decided over the 20 grid points: the row-block index of every tall window is the point's
    number, every other block index is zero. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer of the whole arrays. -/
theorem flushed_eq (c : Dev nD) (t : Fin cfg1.N) :
    (dat1 (F := Ideal) V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S5000x24) hz, View.ld_unit_zero (S := S5000x1) hz, View.ld_unit_zero (S := S24x24) hz,
    View.ld_unit_zero (S := S1x24) hz]
  rw [pay_eq]
  obtain ⟨a0, a1, b0, b1, c0, c1, d0, d1, e0, e1, f0, f1, g0, g1⟩ := idx_facts t
  funext j
  show actArr zf (meanLayer (R := 5000) (K := 24) (N := 24) (iblk1 V c 0 t) (iblk1 V c 2 t) (iblk1 V c 1 t) (iblk1 V c 3 t) (iblk1 V c 4 t)
      (unrow (iblk1 V c 5 t))) j = layer V c (((cfg1.win 6).blk t).view.emb j)
  unfold layer
  refine actArr_at zf _ _ j _ ?_
  refine meanLayer_block (R := 5000) (R' := 100000) (K := 24) (N := 24) (iblk1 V c 0 t) (iblk1 V c 2 t) (iblk1 V c 1 t)
    (V c main_v33) (V c main_v11) (V c main_v23) (iblk1 V c 3 t) (iblk1 V c 4 t) (V c main_arg5) (V c main_arg6)
    (iblk1 V c 5 t) (V c main_v34) (t.val * 5000) j (((cfg1.win 6).blk t).view.emb j) ?_ ?_ ?_ ?_ ?_ ?_ ?_ ?_
  · show win1_6.index t (0 : Fin 2) * 5000 + 1 * (j 0).val = t.val * 5000 + (j 0).val
    omega
  · show win1_6.index t (1 : Fin 2) * 24 + 1 * (j 1).val = (j 1).val
    omega
  · intro u z hz0 hz1
    show V c main_v33 (((cfg1.win 0).blk t).view.emb u) = V c main_v33 z
    refine congrArg _ (funext fun a => Fin.ext ?_)
    match a with
    | ⟨0, _⟩ => show win1_0.index t (0 : Fin 2) * 5000 + 1 * (u 0).val = (z 0).val; omega
    | ⟨1, _⟩ => show win1_0.index t (1 : Fin 2) * 24 + 1 * (u 1).val = (z 1).val; omega
  · intro u z hz0 hz1
    show V c main_v11 (((cfg1.win 2).blk t).view.emb u) = V c main_v11 z
    refine congrArg _ (funext fun a => Fin.ext ?_)
    match a with
    | ⟨0, _⟩ => show win1_2.index t (0 : Fin 2) * 5000 + 1 * (u 0).val = (z 0).val; omega
    | ⟨1, _⟩ => show win1_2.index t (1 : Fin 2) * 1 + 1 * (u 1).val = (z 1).val; omega
  · intro u z hz0 hz1
    show V c main_v23 (((cfg1.win 1).blk t).view.emb u) = V c main_v23 z
    refine congrArg _ (funext fun a => Fin.ext ?_)
    match a with
    | ⟨0, _⟩ => show win1_1.index t (0 : Fin 2) * 5000 + 1 * (u 0).val = (z 0).val; omega
    | ⟨1, _⟩ => show win1_1.index t (1 : Fin 2) * 24 + 1 * (u 1).val = (z 1).val; omega
  · intro u
    show V c main_arg5 (((cfg1.win 3).blk t).view.emb u) = V c main_arg5 u
    refine congrArg _ (funext fun a => Fin.ext ?_)
    match a with
    | ⟨0, _⟩ => show win1_3.index t (0 : Fin 2) * 24 + 1 * (u 0).val = (u 0).val; omega
    | ⟨1, _⟩ => show win1_3.index t (1 : Fin 2) * 24 + 1 * (u 1).val = (u 1).val; omega
  · intro u
    show V c main_arg6 (((cfg1.win 4).blk t).view.emb u) = V c main_arg6 u
    refine congrArg _ (funext fun a => Fin.ext ?_)
    match a with
    | ⟨0, _⟩ => show win1_4.index t (0 : Fin 2) * 24 + 1 * (u 0).val = (u 0).val; omega
    | ⟨1, _⟩ => show win1_4.index t (1 : Fin 2) * 24 + 1 * (u 1).val = (u 1).val; omega
  · intro u
    show V c main_v34 (((cfg1.win 5).blk t).view.emb u) = V c main_v34 u
    refine congrArg _ (funext fun a => Fin.ext ?_)
    match a with
    | ⟨0, _⟩ => show win1_5.index t (0 : Fin 2) * 1 + 1 * (u 0).val = (u 0).val; omega
    | ⟨1, _⟩ => show win1_5.index t (1 : Fin 2) * 24 + 1 * (u 1).val = (u 1).val; omega

/-- An index of the result array is in point `t`'s block iff each coordinate is in the block's range on its axis. -/
theorem mem_blk (t : Fin cfg1.N) (i : S100000x24.Idx) :
    i ∈ ((cfg1.win 6).blk t).view.set ↔ ∀ a : Fin 2, win1_6.index t a * S5000x24.size a ≤ (i a).val ∧ (i a).val < win1_6.index t a * S5000x24.size a + S5000x24.size a := by
  show i ∈ ((View.whole main_v35).slice (win1_6.rect t)).set ↔ _
  rw [View.set_slice_whole, Rect.mem_set_unit]
  exact Iff.rfl

/-- Every row of the result lies in the block of the point numbered by the row divided by 5000. -/
theorem covered (i : S100000x24.Idx) : ∃ t : Fin cfg1.N, (cfg1.win 6).flush t = true ∧ i ∈ ((cfg1.win 6).blk t).view.set := by
  have hi0 : (i 0).val < 100000 := (i 0).isLt
  have hi1 : (i 1).val < 24 := (i 1).isLt
  refine ⟨⟨(i 0).val / 5000, by show (i 0).val / 5000 < 20; omega⟩, flush1_6 _, ?_⟩
  rw [mem_blk]
  obtain ⟨a0, a1, b0, b1, c0, c1, d0, d1, e0, e1, f0, f1, g0, g1⟩ := idx_facts ⟨(i 0).val / 5000, by show (i 0).val / 5000 < 20; omega⟩
  have g0' : win1_6.index ⟨(i 0).val / 5000, by show (i 0).val / 5000 < 20; omega⟩ (0 : Fin 2) = (i 0).val / 5000 := g0
  intro a
  match a with
  | ⟨0, _⟩ =>
    show win1_6.index _ (0 : Fin 2) * 5000 ≤ (i 0).val ∧ (i 0).val < win1_6.index _ (0 : Fin 2) * 5000 + 5000
    omega
  | ⟨1, _⟩ =>
    show win1_6.index _ (1 : Fin 2) * 24 ≤ (i 1).val ∧ (i 1).val < win1_6.index _ (1 : Fin 2) * 24 + 24
    omega

/-- THE RESULT ARRAY after the region: the layer of the arrays the region was entered with. -/
theorem value (c : Dev nD) : (dat1 (F := Ideal) V c).arrAt 6 cfg1.N = layer V c :=
  (dat1 (F := Ideal) V c).arrAt_eq_of_cover 6 (layer V c) (fun t _ => flushed_eq V c t) (covered)

end Cert.KernelIdeal.Region1

end
-- ==== Proof.Region2.lean ====
/-
  REGION 2: what the third layer's grid of row blocks leaves in its result array, at the ideal values.

  The grid has 20 points; point `t` is handed rows `5000·t … 5000·t + 4999` of the neighbour sums, of the column of
  reciprocal counts and of the node rows, and the two weight matrices and the one-row bias whole.  Its body computes the
  mean layer of LibMeanLayer on those 5000 rows, passed through the logistic function, and writes it back as rows `5000·t … 5000·t + 4999` of the
  result.  Each row of the layer depends only on the same row of the tall operands, so block `t` of the result is block
  `t` of the layer of the WHOLE arrays (`flushed_eq`); the 20 blocks cover all 100000 rows (`covered`), so the result
  array ends holding that layer of the arrays the region was entered with (`value`), whatever those are.
-/
import proofs.«140335_j32375463477418_2_alg».proof.Proof.Gen.KernelIdeal.Frame
import proofs.«140335_j32375463477418_2_alg».proof.Proof.LibMeanLayer

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseRow Cert.RowBias Cert.MeanLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def layer (c : Dev nD) : S100000x12.Idx → EReal :=
  logArr (meanLayer (R := 100000) (K := 24) (N := 12) (V c main_v45) (V c main_v11) (V c main_v35) (V c main_arg8) (V c main_arg9) (unrow (V c main_v46)))

/-- The body's arithmetic on one block of 5000 rows is the layer of those rows. -/
theorem pay_eq (x0 : Vec Ideal S5000x24 .f32) (x2 : Vec Ideal S5000x1 .f32) (x1 : Vec Ideal S5000x24 .f32)
    (x3 x4 : Vec Ideal S24x12 .f32) (x5 : Vec Ideal S1x12 .f32) :
    k2_pay1 x0 x2 x1 x3 x4 x5 = logArr (meanLayer (R := 5000) (K := 24) (N := 12) x0 x2 x1 x3 x4 (unrow x5)) :=
  kmean_cast_logistic (R := 5000) (K := 24) (N := 12) x0 x1 x2 x3 x4 x5 _ _ _ _ _ _

/-- The printed index maps, decided over the 20 grid points: the row-block index of every tall window is the point's
    number, every other block index is zero. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- WHAT POINT `t` WRITES BACK is block `t` of the layer of the whole arrays. -/
theorem flushed_eq (c : Dev nD) (t : Fin cfg2.N) :
    (dat2 (F := Ideal) V c).flushed 6 t = ((cfg2.win 6).blk t).view.read (Elt Ideal) (layer V c) := by
  show (cfg2.win 6).cut (grid2.coords t) ((dat2 V c).after 6 t) = _
  rw [after2_6]
  unfold out2_6
  rw [View.canon_unit_zero hz]
  simp only [View.ld_unit_zero (S := S5000x24) hz, View.ld_unit_zero (S := S5000x1) hz, View.ld_unit_zero (S := S24x12) hz,
    View.ld_unit_zero (S := S1x12) hz]
  rw [pay_eq]
  obtain ⟨a0, a1, b0, b1, c0, c1, d0, d1, e0, e1, f0, f1, g0, g1⟩ := idx_facts t
  funext j
  show logArr (meanLayer (R := 5000) (K := 24) (N := 12) (iblk2 V c 0 t) (iblk2 V c 2 t) (iblk2 V c 1 t) (iblk2 V c 3 t) (iblk2 V c 4 t)
      (unrow (iblk2 V c 5 t))) j = layer V c (((cfg2.win 6).blk t).view.emb j)
  unfold layer
  refine logArr_at _ _ j _ ?_
  refine meanLayer_block (R := 5000) (R' := 100000) (K := 24) (N := 12) (iblk2 V c 0 t) (iblk2 V c 2 t) (iblk2 V c 1 t)
    (V c main_v45) (V c main_v11) (V c main_v35) (iblk2 V c 3 t) (iblk2 V c 4 t) (V c main_arg8) (V c main_arg9)
    (iblk2 V c 5 t) (V c main_v46) (t.val * 5000) j (((cfg2.win 6).blk t).view.emb j) ?_ ?_ ?_ ?_ ?_ ?_ ?_ ?_
  · show win2_6.index t (0 : Fin 2) * 5000 + 1 * (j 0).val = t.val * 5000 + (j 0).val
    omega
  · show win2_6.index t (1 : Fin 2) * 12 + 1 * (j 1).val = (j 1).val
    omega
  · intro u z hz0 hz1
    show V c main_v45 (((cfg2.win 0).blk t).view.emb u) = V c main_v45 z
    refine congrArg _ (funext fun a => Fin.ext ?_)
    match a with
    | ⟨0, _⟩ => show win2_0.index t (0 : Fin 2) * 5000 + 1 * (u 0).val = (z 0).val; omega
    | ⟨1, _⟩ => show win2_0.index t (1 : Fin 2) * 24 + 1 * (u 1).val = (z 1).val; omega
  · intro u z hz0 hz1
    show V c main_v11 (((cfg2.win 2).blk t).view.emb u) = V c main_v11 z
    refine congrArg _ (funext fun a => Fin.ext ?_)
    match a with
    | ⟨0, _⟩ => show win2_2.index t (0 : Fin 2) * 5000 + 1 * (u 0).val = (z 0).val; omega
    | ⟨1, _⟩ => show win2_2.index t (1 : Fin 2) * 1 + 1 * (u 1).val = (z 1).val; omega
  · intro u z hz0 hz1
    show V c main_v35 (((cfg2.win 1).blk t).view.emb u) = V c main_v35 z
    refine congrArg _ (funext fun a => Fin.ext ?_)
    match a with
    | ⟨0, _⟩ => show win2_1.index t (0 : Fin 2) * 5000 + 1 * (u 0).val = (z 0).val; omega
    | ⟨1, _⟩ => show win2_1.index t (1 : Fin 2) * 24 + 1 * (u 1).val = (z 1).val; omega
  · intro u
    show V c main_arg8 (((cfg2.win 3).blk t).view.emb u) = V c main_arg8 u
    refine congrArg _ (funext fun a => Fin.ext ?_)
    match a with
    | ⟨0, _⟩ => show win2_3.index t (0 : Fin 2) * 24 + 1 * (u 0).val = (u 0).val; omega
    | ⟨1, _⟩ => show win2_3.index t (1 : Fin 2) * 12 + 1 * (u 1).val = (u 1).val; omega
  · intro u
    show V c main_arg9 (((cfg2.win 4).blk t).view.emb u) = V c main_arg9 u
    refine congrArg _ (funext fun a => Fin.ext ?_)
    match a with
    | ⟨0, _⟩ => show win2_4.index t (0 : Fin 2) * 24 + 1 * (u 0).val = (u 0).val; omega
    | ⟨1, _⟩ => show win2_4.index t (1 : Fin 2) * 12 + 1 * (u 1).val = (u 1).val; omega
  · intro u
    show V c main_v46 (((cfg2.win 5).blk t).view.emb u) = V c main_v46 u
    refine congrArg _ (funext fun a => Fin.ext ?_)
    match a with
    | ⟨0, _⟩ => show win2_5.index t (0 : Fin 2) * 1 + 1 * (u 0).val = (u 0).val; omega
    | ⟨1, _⟩ => show win2_5.index t (1 : Fin 2) * 12 + 1 * (u 1).val = (u 1).val; omega

/-- An index of the result array is in point `t`'s block iff each coordinate is in the block's range on its axis. -/
theorem mem_blk (t : Fin cfg2.N) (i : S100000x12.Idx) :
    i ∈ ((cfg2.win 6).blk t).view.set ↔ ∀ a : Fin 2, win2_6.index t a * S5000x12.size a ≤ (i a).val ∧ (i a).val < win2_6.index t a * S5000x12.size a + S5000x12.size a := by
  show i ∈ ((View.whole main_v47).slice (win2_6.rect t)).set ↔ _
  rw [View.set_slice_whole, Rect.mem_set_unit]
  exact Iff.rfl

/-- Every row of the result lies in the block of the point numbered by the row divided by 5000. -/
theorem covered (i : S100000x12.Idx) : ∃ t : Fin cfg2.N, (cfg2.win 6).flush t = true ∧ i ∈ ((cfg2.win 6).blk t).view.set := by
  have hi0 : (i 0).val < 100000 := (i 0).isLt
  have hi1 : (i 1).val < 12 := (i 1).isLt
  refine ⟨⟨(i 0).val / 5000, by show (i 0).val / 5000 < 20; omega⟩, flush2_6 _, ?_⟩
  rw [mem_blk]
  obtain ⟨a0, a1, b0, b1, c0, c1, d0, d1, e0, e1, f0, f1, g0, g1⟩ := idx_facts ⟨(i 0).val / 5000, by show (i 0).val / 5000 < 20; omega⟩
  have g0' : win2_6.index ⟨(i 0).val / 5000, by show (i 0).val / 5000 < 20; omega⟩ (0 : Fin 2) = (i 0).val / 5000 := g0
  intro a
  match a with
  | ⟨0, _⟩ =>
    show win2_6.index _ (0 : Fin 2) * 5000 ≤ (i 0).val ∧ (i 0).val < win2_6.index _ (0 : Fin 2) * 5000 + 5000
    omega
  | ⟨1, _⟩ =>
    show win2_6.index _ (1 : Fin 2) * 12 ≤ (i 1).val ∧ (i 1).val < win2_6.index _ (1 : Fin 2) * 12 + 12
    omega

/-- THE RESULT ARRAY after the region: the layer of the arrays the region was entered with. -/
theorem value (c : Dev nD) : (dat2 (F := Ideal) V c).arrAt 6 cfg2.N = layer V c :=
  (dat2 (F := Ideal) V c).arrAt_eq_of_cover 6 (layer V c) (fun t _ => flushed_eq V c t) (covered)

end Cert.KernelIdeal.Region2

end
-- ==== Proof.KernelTerms.lean ====
/-
  THE HOST OPERATIONS AROUND THE LAYERS, named, in the vocabulary of `KernelIdeal`, at the ideal values.

  From the edge list `e` (two rows of 3200000 node numbers: sources, then destinations):
  • `src e`, `dst e`: its two rows as vectors;
  • `srcIdx e`: the sources as a column of gather positions, a negative source counted from the end (plus 100000);
    `dstIdx e`: the destinations as a column of scatter positions;
  • `count e`: for every node the number of edges arriving at it, a sum of ones scattered over a column of zeros;
    `raised e`: that count raised to at least one; `inv e`: its reciprocal, `1 / max(count, 1)`;
  • `agg32 e h`, `agg24 e h`: for every node the sum of the rows of `h` at the sources of the edges arriving at it (rows
    gathered at `srcIdx`, scattered with addition at `dstIdx` over zeros), at width 32 and at width 24.
  These are definitions only; nothing is proved about gathering or scattering, because the two programs compared
  apply the same operations to the same edge list.
-/
import proofs.«140335_j32375463477418_2_alg».proof.Proof.Gen.KernelIdeal
import Idealize.ShloMosaic.PureOps.Ideal

noncomputable section

namespace Cert.KernelIdeal.Terms

open Idealize.ShloMosaic Cert.KernelIdeal Cert.KernelIdeal.Gen

/-- The edge list: sources in row 0, destinations in row 1. -/
abbrev Edges := (⟨S2x3200000, .i32⟩ : BufTy).Contents (Elt Ideal)

def src (e : Edges) : (⟨S3200000, .i32⟩ : BufTy).Contents (Elt Ideal) :=
  shapeCast S3200000 (extractStridedSlice S1x3200000 ![0, 0] e slices_S2x3200000_S1x3200000_0_0) shapeCasts_S1x3200000_S3200000

def dst (e : Edges) : (⟨S3200000, .i32⟩ : BufTy).Contents (Elt Ideal) :=
  shapeCast S3200000 (extractStridedSlice S1x3200000 ![1, 0] e slices_S2x3200000_S1x3200000_1_0) shapeCasts_S1x3200000_S3200000

def srcIdx (e : Edges) : (⟨S3200000x1, .i32⟩ : BufTy).Contents (Elt Ideal) :=
  broadcastInDim S3200000x1 ![0] bcast_S3200000_S3200000x1_0
    (select (cmpi .slt (src e) (broadcastInDim S3200000 ![] bcast_S_S3200000 (constantI S_ 32 0#32)))
      (addi (src e) (broadcastInDim S3200000 ![] bcast_S_S3200000 (constantI S_ 32 100000#32))) (src e))

def dstIdx (e : Edges) : (⟨S3200000x1, .i32⟩ : BufTy).Contents (Elt Ideal) :=
  broadcastInDim S3200000x1 ![0] bcast_S3200000_S3200000x1_0 (dst e)

/-- A column of ones. -/
def ones1 : FVec Ideal S100000x1 .f32 :=
  broadcastInDim S100000x1 ![] bcast_S_S100000x1 (constant (F := Ideal) S_ .f32 0x3F800000#32)

def count (e : Edges) : FVec Ideal S100000x1 .f32 :=
  Host.scatterAdd (F := Ideal) scatter_S100000x1_S3200000x1_S3200000x1_1_0_0_1
    (broadcastInDim S100000x1 ![] bcast_S_S100000x1 (constant (F := Ideal) S_ .f32 0x00000000#32)) (dstIdx e)
    (broadcastInDim S3200000x1 ![] bcast_S_S3200000x1 (constant (F := Ideal) S_ .f32 0x3F800000#32))

def raised (e : Edges) : FVec Ideal S100000x1 .f32 := maximumf (F := Ideal) (count e) ones1

def inv (e : Edges) : FVec Ideal S100000x1 .f32 := Host.divf (F := Ideal) ones1 (raised e)

def agg32 (e : Edges) (h : FVec Ideal S100000x32 .f32) : FVec Ideal S100000x32 .f32 :=
  Host.scatterAdd (F := Ideal) scatter_S100000x32_S3200000x1_S3200000x32_1_0_0_1
    (broadcastInDim S100000x32 ![] bcast_S_S100000x32 (constant (F := Ideal) S_ .f32 0x00000000#32)) (dstIdx e)
    (Host.gather gather_S100000x32_S3200000x1_S3200000x32_1_0_n_n_0_1_132 h (srcIdx e))

def agg24 (e : Edges) (h : FVec Ideal S100000x24 .f32) : FVec Ideal S100000x24 .f32 :=
  Host.scatterAdd (F := Ideal) scatter_S100000x24_S3200000x1_S3200000x24_1_0_0_1
    (broadcastInDim S100000x24 ![] bcast_S_S100000x24 (constant (F := Ideal) S_ .f32 0x00000000#32)) (dstIdx e)
    (Host.gather gather_S100000x24_S3200000x1_S3200000x24_1_0_n_n_0_1_124 h (srcIdx e))

end Cert.KernelIdeal.Terms

end
-- ==== Proof.SageNet.lean ====
/-
  THREE MEAN-AGGREGATING GRAPH LAYERS, as one function of the arrays, at the ideal values.

  Over 100000 nodes: the node features `x` have width 32, the two hidden layers width 24 and the result width 12.  Each
  layer takes the current node rows `h`, the SUM over every node's neighbours of their rows — a linear operator on
  arrays, `agg32` at width 32 and `agg24` at width 24, kept abstract here — and one number per node `inv`, the reciprocal
  of its raised neighbour count, and returns LibMeanLayer's layer
      row ↦ ((sum · inv) · wl + h · wr) + b
  followed by the rectifier (layers 1 and 2) or the logistic function (layer 3).  Nothing about the operators `agg32`,
  `agg24` or the column `inv` is used: the two programs compared build them by the same operations from the same
  edge list, so they enter here as parameters.
-/
import proofs.«140335_j32375463477418_2_alg».proof.Proof.LibMeanLayer

noncomputable section

namespace Cert.SageNet

open Idealize.ShloMosaic Idealize.ShloMosaic.ValueIdx Cert.DenseRow Cert.RowBias Cert.MeanLayer

abbrev A32 := (⟨2, ![100000, 32]⟩ : Shape).Idx → EReal
abbrev A24 := (⟨2, ![100000, 24]⟩ : Shape).Idx → EReal
abbrev A12 := (⟨2, ![100000, 12]⟩ : Shape).Idx → EReal
abbrev A1 := (⟨2, ![100000, 1]⟩ : Shape).Idx → EReal

/-- The first layer: width 32 to width 24, rectified. -/
def layer1 (agg32 : A32 → A32) (inv : A1) (x : A32) (wl wr : (⟨2, ![32, 24]⟩ : Shape).Idx → EReal)
    (b : (⟨1, ![24]⟩ : Shape).Idx → EReal) : A24 :=
  actArr zf (meanLayer (agg32 x) inv x wl wr b)

/-- The second layer: width 24 to width 24, rectified. -/
def layer2 (agg24 : A24 → A24) (inv : A1) (h : A24) (wl wr : (⟨2, ![24, 24]⟩ : Shape).Idx → EReal)
    (b : (⟨1, ![24]⟩ : Shape).Idx → EReal) : A24 :=
  actArr zf (meanLayer (agg24 h) inv h wl wr b)

/-- The third layer: width 24 to width 12, through the logistic function. -/
def layer3 (agg24 : A24 → A24) (inv : A1) (h : A24) (wl wr : (⟨2, ![24, 12]⟩ : Shape).Idx → EReal)
    (b : (⟨1, ![12]⟩ : Shape).Idx → EReal) : A12 :=
  logArr (meanLayer (agg24 h) inv h wl wr b)

/-- The three layers one after the other. -/
def net (agg32 : A32 → A32) (agg24 : A24 → A24) (inv : A1) (x : A32)
    (wl1 wr1 : (⟨2, ![32, 24]⟩ : Shape).Idx → EReal) (b1 : (⟨1, ![24]⟩ : Shape).Idx → EReal)
    (wl2 wr2 : (⟨2, ![24, 24]⟩ : Shape).Idx → EReal) (b2 : (⟨1, ![24]⟩ : Shape).Idx → EReal)
    (wl3 wr3 : (⟨2, ![24, 12]⟩ : Shape).Idx → EReal) (b3 : (⟨1, ![12]⟩ : Shape).Idx → EReal) : A12 :=
  layer3 agg24 inv (layer2 agg24 inv (layer1 agg32 inv x wl1 wr1 b1) wl2 wr2 b2) wl3 wr3 b3

end Cert.SageNet

end
-- ==== Proof.KernelStages.lean ====
/-
  WHAT THE KERNEL PROGRAM'S BUFFERS HOLD at each boundary between its host stretches and its three regions, at the ideal
  values, as functions of the arrays it was launched with.

  The program alternates stretches of host operations with the three layer regions.  The contents at the seven boundaries
  (launch, after stretch 0, after region 0, … , after region 2) are the generated fold `W0 … W6`.  Followed here for
  the buffers that matter: the edge rows `src`, `dst` and the column of reciprocal counts `inv`, computed once by stretch 0
  and only read afterwards; before each region the neighbour sums `agg` of the current node rows and the bias laid out as
  one row; after each region its result array, which by Region0/1/2 is the mean layer of the arrays the region was
  entered with — `H1`, `H2` and finally `H3`, the network of SageNet applied to the launch arrays (`W6_v47`).  A buffer a
  stretch does not write, and a buffer that is no array of a region (or one of its input arrays), keeps its contents.
-/
import proofs.«140335_j32375463477418_2_alg».proof.Proof.Region0
import proofs.«140335_j32375463477418_2_alg».proof.Proof.Region1
import proofs.«140335_j32375463477418_2_alg».proof.Proof.Region2
import proofs.«140335_j32375463477418_2_alg».proof.Proof.KernelTerms
import proofs.«140335_j32375463477418_2_alg».proof.Proof.SageNet
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Terms
open Cert.DenseRow Cert.RowBias Cert.MeanLayer Cert.SageNet

/-- A buffer no operation of a host stretch writes keeps its contents across the stretch. -/
macro "unwritten_by " ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable (m : (ℓ : Loc nD τ sig) → Buf (Elt Ideal) ℓ) (ρ : Dev nD → PrngReg)

/-- The edge list as launched. -/
abbrev E (c : Dev nD) : Edges := m ((c : Thread nD τ).loc main_arg1)

/-- The node rows after the first, the second and the third layer. -/
def H1 (c : Dev nD) : A24 :=
  layer1 (agg32 (E m c)) (inv (E m c)) (m ((c : Thread nD τ).loc main_arg0)) (m ((c : Thread nD τ).loc main_arg2)) (m ((c : Thread nD τ).loc main_arg3)) (m ((c : Thread nD τ).loc main_arg4))
def H2 (c : Dev nD) : A24 :=
  layer2 (agg24 (E m c)) (inv (E m c)) (H1 m c) (m ((c : Thread nD τ).loc main_arg5)) (m ((c : Thread nD τ).loc main_arg6)) (m ((c : Thread nD τ).loc main_arg7))
def H3 (c : Dev nD) : A12 :=
  layer3 (agg24 (E m c)) (inv (E m c)) (H2 m c) (m ((c : Thread nD τ).loc main_arg8)) (m ((c : Thread nD τ).loc main_arg9)) (m ((c : Thread nD τ).loc main_arg10))

/-! ## After stretch 0 -/
theorem W1_v1 (c : Dev nD) : W1 m ρ c (Proc.devRef .tc main_v1) = src (E m c) := by
  show StableHlo.after hostOps0 (W0 m ρ c) (Proc.devRef .tc main_v1) = _
  after_results_simp
  rfl

theorem W1_v3 (c : Dev nD) : W1 m ρ c (Proc.devRef .tc main_v3) = dst (E m c) := by
  show StableHlo.after hostOps0 (W0 m ρ c) (Proc.devRef .tc main_v3) = _
  after_results_simp
  rfl

theorem W1_v11 (c : Dev nD) : W1 m ρ c (Proc.devRef .tc main_v11) = inv (E m c) := by
  show StableHlo.after hostOps0 (W0 m ρ c) (Proc.devRef .tc main_v11) = _
  after_results_simp
  rfl

theorem W1_v21 (c : Dev nD) : W1 m ρ c (Proc.devRef .tc main_v21) = agg32 (E m c) (m ((c : Thread nD τ).loc main_arg0)) := by
  show StableHlo.after hostOps0 (W0 m ρ c) (Proc.devRef .tc main_v21) = _
  after_results_simp
  rfl

theorem W1_v22 (c : Dev nD) : W1 m ρ c (Proc.devRef .tc main_v22) = shapeCast S1x24 (m ((c : Thread nD τ).loc main_arg4)) shapeCasts_S24_S1x24 := by
  show StableHlo.after hostOps0 (W0 m ρ c) (Proc.devRef .tc main_v22) = _
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten_by hostOps0

theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten_by hostOps0

theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten_by hostOps0

theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten_by hostOps0

theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten_by hostOps0

theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten_by hostOps0

theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten_by hostOps0

theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  unwritten_by hostOps0

theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  unwritten_by hostOps0

/-! ## After region 0 -/

theorem W2_v23 (c : Dev nD) : W2 m ρ c (Proc.devRef .tc main_v23) = H1 m c := by
  refine (W2_arr m ρ c 6).trans ((Region0.value (V1 m ρ) c).trans ?_)
  unfold Region0.layer H1 layer1
  show actArr zf (meanLayer (R := 100000) (K := 32) (N := 24) (W1 m ρ c (Proc.devRef .tc main_v21)) (W1 m ρ c (Proc.devRef .tc main_v11)) (W1 m ρ c (Proc.devRef .tc main_arg0)) (W1 m ρ c (Proc.devRef .tc main_arg2)) (W1 m ρ c (Proc.devRef .tc main_arg3))
      (unrow (W1 m ρ c (Proc.devRef .tc main_v22)))) = _
  rw [W1_v21, W1_v11, W1_arg0, W1_arg2, W1_arg3, W1_v22, unrow_cast]

theorem W2_v11 (c : Dev nD) : W2 m ρ c (Proc.devRef .tc main_v11) = inv (E m c) :=
  (W2_arr m ρ c 2).trans (((dat0 (V1 m ρ) c).arrAt_in 2 rfl _).trans ((A_eq0 (V1 m ρ) c 2).trans (W1_v11 m ρ c)))

theorem W2_v1 (c : Dev nD) : W2 m ρ c (Proc.devRef .tc main_v1) = src (E m c) :=
  (W2_of_ne m ρ c main_v1 (by decide)).trans (W1_v1 m ρ c)

theorem W2_v3 (c : Dev nD) : W2 m ρ c (Proc.devRef .tc main_v3) = dst (E m c) :=
  (W2_of_ne m ρ c main_v3 (by decide)).trans (W1_v3 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

/-! ## After stretch 1 -/

theorem W3_v33 (c : Dev nD) : W3 m ρ c (Proc.devRef .tc main_v33) = agg24 (E m c) (H1 m c) := by
  show StableHlo.after hostOps1 (W2 m ρ c) (Proc.devRef .tc main_v33) = _
  after_results_simp
  rw [W2_v23, W2_v1, W2_v3]
  rfl

theorem W3_v34 (c : Dev nD) : W3 m ρ c (Proc.devRef .tc main_v34) = shapeCast S1x24 (m ((c : Thread nD τ).loc main_arg7)) shapeCasts_S24_S1x24 := by
  show StableHlo.after hostOps1 (W2 m ρ c) (Proc.devRef .tc main_v34) = _
  after_results_simp
  rw [W2_arg7]
  rfl

theorem W3_v23 (c : Dev nD) : W3 m ρ c (Proc.devRef .tc main_v23) = H1 m c := by
  refine Eq.trans ?_ (W2_v23 m ρ c)
  show StableHlo.after hostOps1 (W2 m ρ c) (Proc.devRef .tc main_v23) = W2 m ρ c (Proc.devRef .tc main_v23)
  unwritten_by hostOps1

theorem W3_v11 (c : Dev nD) : W3 m ρ c (Proc.devRef .tc main_v11) = inv (E m c) := by
  refine Eq.trans ?_ (W2_v11 m ρ c)
  show StableHlo.after hostOps1 (W2 m ρ c) (Proc.devRef .tc main_v11) = W2 m ρ c (Proc.devRef .tc main_v11)
  unwritten_by hostOps1

theorem W3_v1 (c : Dev nD) : W3 m ρ c (Proc.devRef .tc main_v1) = src (E m c) := by
  refine Eq.trans ?_ (W2_v1 m ρ c)
  show StableHlo.after hostOps1 (W2 m ρ c) (Proc.devRef .tc main_v1) = W2 m ρ c (Proc.devRef .tc main_v1)
  unwritten_by hostOps1

theorem W3_v3 (c : Dev nD) : W3 m ρ c (Proc.devRef .tc main_v3) = dst (E m c) := by
  refine Eq.trans ?_ (W2_v3 m ρ c)
  show StableHlo.after hostOps1 (W2 m ρ c) (Proc.devRef .tc main_v3) = W2 m ρ c (Proc.devRef .tc main_v3)
  unwritten_by hostOps1

theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  unwritten_by hostOps1

theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  unwritten_by hostOps1

theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8)
  unwritten_by hostOps1

theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = W2 m ρ c (Proc.devRef .tc main_arg9)
  unwritten_by hostOps1

theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10)
  unwritten_by hostOps1

/-! ## After region 1 -/

theorem W4_v35 (c : Dev nD) : W4 m ρ c (Proc.devRef .tc main_v35) = H2 m c := by
  refine (W4_arr m ρ c 6).trans ((Region1.value (V3 m ρ) c).trans ?_)
  unfold Region1.layer H2 layer2
  show actArr zf (meanLayer (R := 100000) (K := 24) (N := 24) (W3 m ρ c (Proc.devRef .tc main_v33)) (W3 m ρ c (Proc.devRef .tc main_v11)) (W3 m ρ c (Proc.devRef .tc main_v23)) (W3 m ρ c (Proc.devRef .tc main_arg5)) (W3 m ρ c (Proc.devRef .tc main_arg6))
      (unrow (W3 m ρ c (Proc.devRef .tc main_v34)))) = _
  rw [W3_v33, W3_v11, W3_v23, W3_arg5, W3_arg6, W3_v34, unrow_cast]

theorem W4_v11 (c : Dev nD) : W4 m ρ c (Proc.devRef .tc main_v11) = inv (E m c) :=
  (W4_arr m ρ c 2).trans (((dat1 (V3 m ρ) c).arrAt_in 2 rfl _).trans ((A_eq1 (V3 m ρ) c 2).trans (W3_v11 m ρ c)))

theorem W4_v1 (c : Dev nD) : W4 m ρ c (Proc.devRef .tc main_v1) = src (E m c) :=
  (W4_of_ne m ρ c main_v1 (by decide)).trans (W3_v1 m ρ c)

theorem W4_v3 (c : Dev nD) : W4 m ρ c (Proc.devRef .tc main_v3) = dst (E m c) :=
  (W4_of_ne m ρ c main_v3 (by decide)).trans (W3_v3 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

theorem W4_arg10 (c : Dev nD) : W4 m ρ c (Proc.devRef .tc main_arg10) = m ((c : Thread nD τ).loc main_arg10) :=
  (W4_of_ne m ρ c main_arg10 (by decide)).trans (W3_arg10 m ρ c)

/-! ## After stretch 2 -/

theorem W5_v45 (c : Dev nD) : W5 m ρ c (Proc.devRef .tc main_v45) = agg24 (E m c) (H2 m c) := by
  show StableHlo.after hostOps2 (W4 m ρ c) (Proc.devRef .tc main_v45) = _
  after_results_simp
  rw [W4_v35, W4_v1, W4_v3]
  rfl

theorem W5_v46 (c : Dev nD) : W5 m ρ c (Proc.devRef .tc main_v46) = shapeCast S1x12 (m ((c : Thread nD τ).loc main_arg10)) shapeCasts_S12_S1x12 := by
  show StableHlo.after hostOps2 (W4 m ρ c) (Proc.devRef .tc main_v46) = _
  after_results_simp
  rw [W4_arg10]
  rfl

theorem W5_v35 (c : Dev nD) : W5 m ρ c (Proc.devRef .tc main_v35) = H2 m c := by
  refine Eq.trans ?_ (W4_v35 m ρ c)
  show StableHlo.after hostOps2 (W4 m ρ c) (Proc.devRef .tc main_v35) = W4 m ρ c (Proc.devRef .tc main_v35)
  unwritten_by hostOps2

theorem W5_v11 (c : Dev nD) : W5 m ρ c (Proc.devRef .tc main_v11) = inv (E m c) := by
  refine Eq.trans ?_ (W4_v11 m ρ c)
  show StableHlo.after hostOps2 (W4 m ρ c) (Proc.devRef .tc main_v11) = W4 m ρ c (Proc.devRef .tc main_v11)
  unwritten_by hostOps2

theorem W5_arg8 (c : Dev nD) : W5 m ρ c (Proc.devRef .tc main_arg8) = m ((c : Thread nD τ).loc main_arg8) := by
  refine Eq.trans ?_ (W4_arg8 m ρ c)
  show StableHlo.after hostOps2 (W4 m ρ c) (Proc.devRef .tc main_arg8) = W4 m ρ c (Proc.devRef .tc main_arg8)
  unwritten_by hostOps2

theorem W5_arg9 (c : Dev nD) : W5 m ρ c (Proc.devRef .tc main_arg9) = m ((c : Thread nD τ).loc main_arg9) := by
  refine Eq.trans ?_ (W4_arg9 m ρ c)
  show StableHlo.after hostOps2 (W4 m ρ c) (Proc.devRef .tc main_arg9) = W4 m ρ c (Proc.devRef .tc main_arg9)
  unwritten_by hostOps2

/-! ## After region 2: the result -/

theorem W6_v47 (c : Dev nD) : W6 m ρ c (Proc.devRef .tc main_v47) = H3 m c := by
  refine (W6_arr m ρ c 6).trans ((Region2.value (V5 m ρ) c).trans ?_)
  unfold Region2.layer H3 layer3
  show logArr (meanLayer (R := 100000) (K := 24) (N := 12) (W5 m ρ c (Proc.devRef .tc main_v45)) (W5 m ρ c (Proc.devRef .tc main_v11)) (W5 m ρ c (Proc.devRef .tc main_v35)) (W5 m ρ c (Proc.devRef .tc main_arg8)) (W5 m ρ c (Proc.devRef .tc main_arg9))
      (unrow (W5 m ρ c (Proc.devRef .tc main_v46)))) = _
  rw [W5_v45, W5_v11, W5_v35, W5_arg8, W5_arg9, W5_v46, unrow_cast]

/-- THE KERNEL'S RESULT ARRAY at the last boundary: the network of the launch arrays. -/
theorem W6_result (c : Dev nD) :
    W6 m ρ c (Proc.devRef .tc main_v47)
      = net (agg32 (E m c)) (agg24 (E m c)) (inv (E m c)) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  W6_v47 m ρ c

end Cert.KernelIdeal.Stages

end
-- ==== Proof.KernelRun.lean ====
/-
  THE KERNEL PROGRAM'S RUN WITH ITS RESULT NAMED, at the ideal values.

  Every weakly fair execution of the idealized kernel program terminates without a fault, leaves the argument arrays as
  launched, and leaves its result array holding the three-layer network of SageNet applied to the launch arrays: the run
  through the program's six segments (three host stretches, three layer regions) ends with every buffer at the last
  boundary's contents, and KernelStages says what the result buffer holds there.
-/
import proofs.«140335_j32375463477418_2_alg».proof.Proof.KernelStages

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Terms Cert.KernelIdeal.Stages Cert.SageNet

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result array at the network of the launch arrays, the arguments unchanged. -/
theorem run : θ_run defs (onTc (τ := τ) (main (F := Ideal))) ⟨m, fun _ => 0, ρ⟩ (fun r => ∀ c : Dev nD,
      r.2.mem ((c.tc : Thread nD τ).loc main_v47)
        = net (agg32 (m ((c.tc : Thread nD τ).loc main_arg1))) (agg24 (m ((c.tc : Thread nD τ).loc main_arg1))) (inv (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v47 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.RefTerms.lean ====
/-
  THE HOST OPERATIONS AROUND THE LAYERS, named, in the vocabulary of `ReferenceIdeal`, at the ideal values.

  From the edge list `e` (two rows of 3200000 node numbers: sources, then destinations):
  • `src e`, `dst e`: its two rows as vectors;
  • `srcIdx e`: the sources as a column of gather positions, a negative source counted from the end (plus 100000);
    `dstIdx e`: the destinations as a column of scatter positions;
  • `count e`: for every node the number of edges arriving at it, a sum of ones scattered over a column of zeros;
    `raised e`: that count raised to at least one; `inv e`: its reciprocal, `1 / max(count, 1)`;
  • `agg32 e h`, `agg24 e h`: for every node the sum of the rows of `h` at the sources of the edges arriving at it (rows
    gathered at `srcIdx`, scattered with addition at `dstIdx` over zeros), at width 32 and at width 24.
  These are definitions only; nothing is proved about gathering or scattering, because the two programs compared
  apply the same operations to the same edge list.
-/
import proofs.«140335_j32375463477418_2_alg».proof.Proof.Gen.ReferenceIdeal
import Idealize.ShloMosaic.PureOps.Ideal

noncomputable section

namespace Cert.ReferenceIdeal.Terms

open Idealize.ShloMosaic Cert.ReferenceIdeal Cert.ReferenceIdeal.Gen

/-- The edge list: sources in row 0, destinations in row 1. -/
abbrev Edges := (⟨S2x3200000, .i32⟩ : BufTy).Contents (Elt Ideal)

def src (e : Edges) : (⟨S3200000, .i32⟩ : BufTy).Contents (Elt Ideal) :=
  shapeCast S3200000 (extractStridedSlice S1x3200000 ![0, 0] e slices_S2x3200000_S1x3200000_0_0) shapeCasts_S1x3200000_S3200000

def dst (e : Edges) : (⟨S3200000, .i32⟩ : BufTy).Contents (Elt Ideal) :=
  shapeCast S3200000 (extractStridedSlice S1x3200000 ![1, 0] e slices_S2x3200000_S1x3200000_1_0) shapeCasts_S1x3200000_S3200000

def srcIdx (e : Edges) : (⟨S3200000x1, .i32⟩ : BufTy).Contents (Elt Ideal) :=
  broadcastInDim S3200000x1 ![0] bcast_S3200000_S3200000x1_0
    (select (cmpi .slt (src e) (broadcastInDim S3200000 ![] bcast_S_S3200000 (constantI S_ 32 0#32)))
      (addi (src e) (broadcastInDim S3200000 ![] bcast_S_S3200000 (constantI S_ 32 100000#32))) (src e))

def dstIdx (e : Edges) : (⟨S3200000x1, .i32⟩ : BufTy).Contents (Elt Ideal) :=
  broadcastInDim S3200000x1 ![0] bcast_S3200000_S3200000x1_0 (dst e)

/-- A column of ones. -/
def ones1 : FVec Ideal S100000x1 .f32 :=
  broadcastInDim S100000x1 ![] bcast_S_S100000x1 (constant (F := Ideal) S_ .f32 0x3F800000#32)

def count (e : Edges) : FVec Ideal S100000x1 .f32 :=
  Host.scatterAdd (F := Ideal) scatter_S100000x1_S3200000x1_S3200000x1_1_0_0_1
    (broadcastInDim S100000x1 ![] bcast_S_S100000x1 (constant (F := Ideal) S_ .f32 0x00000000#32)) (dstIdx e)
    (broadcastInDim S3200000x1 ![] bcast_S_S3200000x1 (constant (F := Ideal) S_ .f32 0x3F800000#32))

def raised (e : Edges) : FVec Ideal S100000x1 .f32 := maximumf (F := Ideal) (count e) ones1

def inv (e : Edges) : FVec Ideal S100000x1 .f32 := Host.divf (F := Ideal) ones1 (raised e)

def agg32 (e : Edges) (h : FVec Ideal S100000x32 .f32) : FVec Ideal S100000x32 .f32 :=
  Host.scatterAdd (F := Ideal) scatter_S100000x32_S3200000x1_S3200000x32_1_0_0_1
    (broadcastInDim S100000x32 ![] bcast_S_S100000x32 (constant (F := Ideal) S_ .f32 0x00000000#32)) (dstIdx e)
    (Host.gather gather_S100000x32_S3200000x1_S3200000x32_1_0_n_n_0_1_132 h (srcIdx e))

def agg24 (e : Edges) (h : FVec Ideal S100000x24 .f32) : FVec Ideal S100000x24 .f32 :=
  Host.scatterAdd (F := Ideal) scatter_S100000x24_S3200000x1_S3200000x24_1_0_0_1
    (broadcastInDim S100000x24 ![] bcast_S_S100000x24 (constant (F := Ideal) S_ .f32 0x00000000#32)) (dstIdx e)
    (Host.gather gather_S100000x24_S3200000x1_S3200000x24_1_0_n_n_0_1_124 h (srcIdx e))

end Cert.ReferenceIdeal.Terms

end
-- ==== Proof.RefValue.lean ====
/-
  THE REFERENCE'S RESULT is the three-layer network, at the ideal values.

  The reference's run ends with its result array at one composed term of the argument arrays.  Read layer by layer that
  term is, three times over, "neighbour sums divided by the raised count, times one weight matrix, plus the node rows times
  the other, plus the bias", under the rectifier twice and then under the logistic function written out as
  `1 / (1 + e^(−y))` (`hlayer1`, `hlayer2`, `hlayer3`; `res_eq` is the identification, term for term).  Dividing the sums
  by the count `max(count, 1)` is multiplying them by its reciprocal, because that count is never zero (`raised_ne_zero`);
  so each host-spelt layer is LibMeanLayer's layer at the column of reciprocals `inv` (`hlayer1_eq` … `hlayer3_eq`), and the
  result is `SageNet.net` of the arguments (`value`).
-/
import proofs.«140335_j32375463477418_2_alg».proof.Proof.Gen.ReferenceIdeal.Run
import proofs.«140335_j32375463477418_2_alg».proof.Proof.RefTerms
import proofs.«140335_j32375463477418_2_alg».proof.Proof.SageNet

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Terms Cert.ReferenceIdeal.Value
open Cert.DenseRow Cert.RowBias Cert.MeanLayer Cert.MeanScale Cert.SageNet

/-! ## The three layers as the host spells them -/

def hlayer1 (e : Edges) (x : FVec Ideal S100000x32 .f32) (wl wr : FVec Ideal S32x24 .f32) (b : FVec Ideal S24 .f32) :
    FVec Ideal S100000x24 .f32 :=
  maximumf (addf (addf
      (Host.dotGeneral dot_S100000x32_S32x24_S100000x24_1_0_0_1_n_n none
        (Host.divf (agg32 e x) (broadcastInDim S100000x32 ![0, 1] bcast_S100000x1_S100000x32_0_1 (raised e))) wl)
      (Host.dotGeneral dot_S100000x32_S32x24_S100000x24_1_0_0_1_n_n none x wr))
    (broadcastInDim S100000x24 ![0, 1] bcast_S1x24_S100000x24_0_1 (broadcastInDim S1x24 ![1] bcast_S24_S1x24_1 b)))
    (broadcastInDim S100000x24 ![] bcast_S_S100000x24 (constant (F := Ideal) S_ .f32 0x00000000#32))

def hlayer2 (e : Edges) (h : FVec Ideal S100000x24 .f32) (wl wr : FVec Ideal S24x24 .f32) (b : FVec Ideal S24 .f32) :
    FVec Ideal S100000x24 .f32 :=
  maximumf (addf (addf
      (Host.dotGeneral dot_S100000x24_S24x24_S100000x24_1_0_0_1_n_n none
        (Host.divf (agg24 e h) (broadcastInDim S100000x24 ![0, 1] bcast_S100000x1_S100000x24_0_1 (raised e))) wl)
      (Host.dotGeneral dot_S100000x24_S24x24_S100000x24_1_0_0_1_n_n none h wr))
    (broadcastInDim S100000x24 ![0, 1] bcast_S1x24_S100000x24_0_1 (broadcastInDim S1x24 ![1] bcast_S24_S1x24_1 b)))
    (broadcastInDim S100000x24 ![] bcast_S_S100000x24 (constant (F := Ideal) S_ .f32 0x00000000#32))

def hlayer3 (e : Edges) (h : FVec Ideal S100000x24 .f32) (wl wr : FVec Ideal S24x12 .f32) (b : FVec Ideal S12 .f32) :
    FVec Ideal S100000x12 .f32 :=
  Host.divf (broadcastInDim S100000x12 ![] bcast_S_S100000x12 (constant (F := Ideal) S_ .f32 0x3F800000#32))
    (addf (broadcastInDim S100000x12 ![] bcast_S_S100000x12 (constant (F := Ideal) S_ .f32 0x3F800000#32))
      (Host.exp (Host.negf (addf (addf
          (Host.dotGeneral dot_S100000x24_S24x12_S100000x12_1_0_0_1_n_n none
            (Host.divf (agg24 e h) (broadcastInDim S100000x24 ![0, 1] bcast_S100000x1_S100000x24_0_1 (raised e))) wl)
          (Host.dotGeneral dot_S100000x24_S24x12_S100000x12_1_0_0_1_n_n none h wr))
        (broadcastInDim S100000x12 ![0, 1] bcast_S1x12_S100000x12_0_1 (broadcastInDim S1x12 ![1] bcast_S12_S1x12_1 b))))))

variable (m : (ℓ : Loc nD τ sig) → Buf (Elt Ideal) ℓ)

/-- The run's result term is the three host-spelt layers applied one after the other to the arguments. -/
theorem res_eq (c : Dev nD) :
    res_main_v83 (F := Ideal) m c
      = hlayer3 (m ((c.tc : Thread nD τ).loc main_arg1))
          (hlayer2 (m ((c.tc : Thread nD τ).loc main_arg1))
            (hlayer1 (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  unfold res_main_v83 hlayer3 hlayer2 hlayer1 agg32 agg24 raised Terms.count ones1 dstIdx srcIdx Terms.src Terms.dst
  rfl

/-! ## Each host-spelt layer is the mean layer at the reciprocals -/

/-- The column of ones reads 1 everywhere. -/
theorem ones1_apply (i : S100000x1.Idx) : ones1 i = 1 :=
  (bcast_const_apply bcast_S_S100000x1 0x3F800000#32 i).trans ofBits_one

/-- The larger of any array's entry and an entry that is one is not zero.  Stated over arbitrary arrays, so that the step
    at an index never looks inside a particular array. -/
theorem maximumf_one_ne_zero {s : Shape} (a b : FVec Ideal s .f32) (i : s.Idx) (hb : b i = 1) : maximumf a b i ≠ 0 := by
  show max (a i) (b i) ≠ 0
  rw [hb]
  exact max_one_ne_zero _

/-- The count raised to at least one is never zero. -/
theorem raised_ne_zero (e : Edges) (i : S100000x1.Idx) : raised e i ≠ 0 :=
  maximumf_one_ne_zero (count e) ones1 i (ones1_apply i)

theorem hlayer1_eq (e : Edges) (x : FVec Ideal S100000x32 .f32) (wl wr : FVec Ideal S32x24 .f32) (b : FVec Ideal S24 .f32) :
    hlayer1 e x wl wr b = layer1 (agg32 e) (inv e) x wl wr b :=
  hmean_relu (R := 100000) (K := 32) (N := 24) (agg32 e x) x ones1 (raised e) wl wr b _ _ _ _ ones1_apply (raised_ne_zero e)

theorem hlayer2_eq (e : Edges) (h : FVec Ideal S100000x24 .f32) (wl wr : FVec Ideal S24x24 .f32) (b : FVec Ideal S24 .f32) :
    hlayer2 e h wl wr b = layer2 (agg24 e) (inv e) h wl wr b :=
  hmean_relu (R := 100000) (K := 24) (N := 24) (agg24 e h) h ones1 (raised e) wl wr b _ _ _ _ ones1_apply (raised_ne_zero e)

theorem hlayer3_eq (e : Edges) (h : FVec Ideal S100000x24 .f32) (wl wr : FVec Ideal S24x12 .f32) (b : FVec Ideal S12 .f32) :
    hlayer3 e h wl wr b = layer3 (agg24 e) (inv e) h wl wr b :=
  hmean_logistic (R := 100000) (K := 24) (N := 12) (agg24 e h) h ones1 (raised e) wl wr b _ _ _ _ ones1_apply (raised_ne_zero e)

/-- THE REFERENCE'S RESULT: the network of the arguments. -/
theorem value (c : Dev nD) :
    res_main_v83 (F := Ideal) m c
      = net (agg32 (m ((c.tc : Thread nD τ).loc main_arg1))) (agg24 (m ((c.tc : Thread nD τ).loc main_arg1)))
          (inv (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [res_eq, hlayer1_eq, hlayer2_eq, hlayer3_eq]
  rfl

end Cert.ReferenceIdeal.RefValue

end
-- ==== Proof.Bridge.lean ====
/-
  THE TWO PROGRAMS' HOST OPERATIONS ARE THE SAME FUNCTIONS.

  The kernel program and the reference each print their own copy of the shapes and of the gather and scatter dimension
  records, with the same contents.  So the neighbour-sum operators at width 32 and 24 and the column of reciprocal counts,
  built by the same operations over those records, are the same functions of the edge list in both vocabularies: each
  equality below holds by unfolding the two copies.
-/
import proofs.«140335_j32375463477418_2_alg».proof.Proof.KernelTerms
import proofs.«140335_j32375463477418_2_alg».proof.Proof.RefTerms

noncomputable section

namespace Cert.Bridge

open Idealize.ShloMosaic

theorem agg32_eq (e : Cert.KernelIdeal.Terms.Edges) :
    Cert.ReferenceIdeal.Terms.agg32 e = Cert.KernelIdeal.Terms.agg32 e := rfl

theorem agg24_eq (e : Cert.KernelIdeal.Terms.Edges) :
    Cert.ReferenceIdeal.Terms.agg24 e = Cert.KernelIdeal.Terms.agg24 e := rfl

theorem inv_eq (e : Cert.KernelIdeal.Terms.Edges) :
    Cert.ReferenceIdeal.Terms.inv e = Cert.KernelIdeal.Terms.inv e := rfl

end Cert.Bridge

end
-- ==== Proof.lean ====
/-
  A three-layer mean-aggregating graph network (widths 32 → 24 → 24 → 12 over 100000 nodes and 3200000 edges): the kernel
  program against its plain reference, over the extended reals.

  Both programs gather each edge's source row, sum the gathered rows at the edge's destination, and count the edges
  arriving at every node, by the same host operations.  The kernel program takes the reciprocal `1 / max(count, 1)` ONCE
  and, in each of its three grid regions, multiplies the neighbour sums by it before the two matrix products (operands
  narrowed to bf16 — the identity on exact values), the bias, and the rectifier (layers 1, 2) or the logistic operation
  (layer 3).  The reference divides the sums by `max(count, 1)` in every layer and writes the logistic function out as
  `1 / (1 + e^(−y))`.  At the ideal values the two are one function:
  • `x · (1 / y) = x / y` for every extended real `x` and every `y ≠ 0`, and `max(count, 1)` is never zero — so no
    input needs to be finite and the precondition is never opened;
  • the logistic operation is `1 / (1 + e^(−y))` by definition;
  • each region's 20 blocks of 5000 rows tile the 100000 rows, and a row of a layer depends only on the same row of its
    tall operands, so a region leaves the layer of the whole arrays in its result (Region0/1/2);
  • the neighbour sums and the counts are the same operations of the same edge list on both sides and are never opened.
  The kernel program's run with its result named is KernelRun (over KernelStages, the buffers boundary by boundary); the
  reference's run is the generated one, its result term read as the network in RefValue; both are SageNet's `net` of the
  argument arrays.  The three frames are the generated ones (the reference's: its run with the result dropped), and the
  idealization rewrote nothing, so its claim is `True`.
-/
import proofs.«140335_j32375463477418_2_alg».proof.Defs
import proofs.«140335_j32375463477418_2_alg».proof.Proof.Gen.Kernel
import proofs.«140335_j32375463477418_2_alg».proof.Proof.Gen.Kernel.Skeleton
import proofs.«140335_j32375463477418_2_alg».proof.Proof.Gen.Kernel.Launch
import proofs.«140335_j32375463477418_2_alg».proof.Proof.Gen.Kernel.Points
import proofs.«140335_j32375463477418_2_alg».proof.Proof.Gen.Kernel.Frame
import proofs.«140335_j32375463477418_2_alg».proof.Proof.Gen.KernelIdeal
import proofs.«140335_j32375463477418_2_alg».proof.Proof.Gen.KernelIdeal.Skeleton
import proofs.«140335_j32375463477418_2_alg».proof.Proof.Gen.KernelIdeal.Launch
import proofs.«140335_j32375463477418_2_alg».proof.Proof.Gen.KernelIdeal.Points
import proofs.«140335_j32375463477418_2_alg».proof.Proof.Gen.KernelIdeal.Frame
import proofs.«140335_j32375463477418_2_alg».proof.Proof.Gen.ReferenceIdeal
import proofs.«140335_j32375463477418_2_alg».proof.Proof.Gen.Pre_finite_inputs
import proofs.«140335_j32375463477418_2_alg».proof.Proof.KernelRun
import proofs.«140335_j32375463477418_2_alg».proof.Proof.RefValue
import proofs.«140335_j32375463477418_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with their result arrays at the network of those
    arguments: the kernel program's by its run, the reference's by its run and the reading of its result term; the two
    vocabularies' neighbour sums and reciprocal counts are the same functions. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.RefValue.value, h0, h1, h2, h3, h4, h5, h6, h7, h8, h9, h10,
    Cert.Bridge.agg32_eq, Cert.Bridge.agg24_eq, Cert.Bridge.inv_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
